-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x7 : Shape := ⟨2, ![65536, 7]⟩
abbrev S32000x100 : Shape := ⟨2, ![32000, 100]⟩
abbrev S50x100 : Shape := ⟨2, ![50, 100]⟩
abbrev S45x100 : Shape := ⟨2, ![45, 100]⟩
abbrev S700x700 : Shape := ⟨2, ![700, 700]⟩
abbrev S700 : Shape := ⟨1, ![700]⟩
abbrev S700x93 : Shape := ⟨2, ![700, 93]⟩
abbrev S93 : Shape := ⟨1, ![93]⟩
abbrev S_ : Shape := ⟨0, ![]⟩

class Facts : Prop where
  bcast_S_S32000x100 : S_.BroadcastsInDim S32000x100 (![] : Fin 0 → Fin S32000x100.rank)
  reducesTo_S32000x100_S_d0_1 : S32000x100.ReducesTo [0, 1] S_
  h_S_ : 0 < S_.numel
  bcast_S_S50x100 : S_.BroadcastsInDim S50x100 (![] : Fin 0 → Fin S50x100.rank)
  reducesTo_S50x100_S_d0_1 : S50x100.ReducesTo [0, 1] S_
  bcast_S_S45x100 : S_.BroadcastsInDim S45x100 (![] : Fin 0 → Fin S45x100.rank)
  reducesTo_S45x100_S_d0_1 : S45x100.ReducesTo [0, 1] S_
  bcast_S_S700x700 : S_.BroadcastsInDim S700x700 (![] : Fin 0 → Fin S700x700.rank)
  reducesTo_S700x700_S_d0_1 : S700x700.ReducesTo [0, 1] S_
  bcast_S_S700 : S_.BroadcastsInDim S700 (![] : Fin 0 → Fin S700.rank)
  reducesTo_S700_S_d0 : S700.ReducesTo [0] S_
  bcast_S_S700x93 : S_.BroadcastsInDim S700x93 (![] : Fin 0 → Fin S700x93.rank)
  reducesTo_S700x93_S_d0_1 : S700x93.ReducesTo [0, 1] S_
  bcast_S_S93 : S_.BroadcastsInDim S93 (![] : Fin 0 → Fin S93.rank)
  reducesTo_S93_S_d0 : S93.ReducesTo [0] S_

variable [Facts]

def fn_part3 {F : FTy → Type} [FloatOps F] (main_v48 : IVec S_ 1) (main_v49 : FVec F S93 .f32) (main_v50 : FVec F S93 .f32) : IVec S_ 1 :=
  let main_v51 : IVec S93 1 := cmpf .olt main_v49 main_v50
  let main_c_19 : IVec S_ 1 := constantI S_ 1 1#1
  let main_v52 : IVec S_ 1 := (fun x v => Host.reduce IntOp.andi x v reducesTo_S93_S_d0 h_S_) main_v51 main_c_19
  let main_v53 : IVec S_ 1 := andi main_v48 main_v52
  main_v53

def fn_part2 {F : FTy → Type} [FloatOps F] (main_arg10 : FVec F S700x700 .f32) (main_arg11 : FVec F S700 .f32) (main_arg12 : FVec F S700x93 .f32) (main_arg13 : FVec F S93 .f32) (main_v33 : IVec S_ 1) : IVec S_ 1 :=
  let main_v34 : FVec F S700x700 .f32 := Host.absf main_arg10
  let main_cst_12 : FVec F S_ .f32 := constant S_ .f32 0x7F800000#32
  let main_v35 : FVec F S700x700 .f32 := broadcastInDim S700x700 ![] bcast_S_S700x700 main_cst_12
  let main_v36 : IVec S700x700 1 := cmpf .olt main_v34 main_v35
  let main_c_13 : IVec S_ 1 := constantI S_ 1 1#1
  let main_v37 : IVec S_ 1 := (fun x v => Host.reduce IntOp.andi x v reducesTo_S700x700_S_d0_1 h_S_) main_v36 main_c_13
  let main_v38 : IVec S_ 1 := andi main_v33 main_v37
  let main_v39 : FVec F S700 .f32 := Host.absf main_arg11
  let main_cst_14 : FVec F S_ .f32 := constant S_ .f32 0x7F800000#32
  let main_v40 : FVec F S700 .f32 := broadcastInDim S700 ![] bcast_S_S700 main_cst_14
  let main_v41 : IVec S700 1 := cmpf .olt main_v39 main_v40
  let main_c_15 : IVec S_ 1 := constantI S_ 1 1#1
  let main_v42 : IVec S_ 1 := (fun x v => Host.reduce IntOp.andi x v reducesTo_S700_S_d0 h_S_) main_v41 main_c_15
  let main_v43 : IVec S_ 1 := andi main_v38 main_v42
  let main_v44 : FVec F S700x93 .f32 := Host.absf main_arg12
  let main_cst_16 : FVec F S_ .f32 := constant S_ .f32 0x7F800000#32
  let main_v45 : FVec F S700x93 .f32 := broadcastInDim S700x93 ![] bcast_S_S700x93 main_cst_16
  let main_v46 : IVec S700x93 1 := cmpf .olt main_v44 main_v45
  let main_c_17 : IVec S_ 1 := constantI S_ 1 1#1
  let main_v47 : IVec S_ 1 := (fun x v => Host.reduce IntOp.andi x v reducesTo_S700x93_S_d0_1 h_S_) main_v46 main_c_17
  let main_v48 : IVec S_ 1 := andi main_v43 main_v47
  let main_v49 : FVec F S93 .f32 := Host.absf main_arg13
  let main_cst_18 : FVec F S_ .f32 := constant S_ .f32 0x7F800000#32
  let main_v50 : FVec F S93 .f32 := broadcastInDim S93 ![] bcast_S_S93 main_cst_18
  fn_part3 (F := F) main_v48 main_v49 main_v50

def fn_part1 {F : FTy → Type} [FloatOps F] (main_arg7 : FVec F S700 .f32) (main_arg8 : FVec F S700x700 .f32) (main_arg9 : FVec F S700 .f32) (main_arg10 : FVec F S700x700 .f32) (main_arg11 : FVec F S700 .f32) (main_arg12 : FVec F S700x93 .f32) (main_arg13 : FVec F S93 .f32) (main_v13 : IVec S_ 1) (main_v16 : IVec S700x700 1) : IVec S_ 1 :=
  let main_c_5 : IVec S_ 1 := constantI S_ 1 1#1
  let main_v17 : IVec S_ 1 := (fun x v => Host.reduce IntOp.andi x v reducesTo_S700x700_S_d0_1 h_S_) main_v16 main_c_5
  let main_v18 : IVec S_ 1 := andi main_v13 main_v17
  let main_v19 : FVec F S700 .f32 := Host.absf main_arg7
  let main_cst_6 : FVec F S_ .f32 := constant S_ .f32 0x7F800000#32
  let main_v20 : FVec F S700 .f32 := broadcastInDim S700 ![] bcast_S_S700 main_cst_6
  let main_v21 : IVec S700 1 := cmpf .olt main_v19 main_v20
  let main_c_7 : IVec S_ 1 := constantI S_ 1 1#1
  let main_v22 : IVec S_ 1 := (fun x v => Host.reduce IntOp.andi x v reducesTo_S700_S_d0 h_S_) main_v21 main_c_7
  let main_v23 : IVec S_ 1 := andi main_v18 main_v22
  let main_v24 : FVec F S700x700 .f32 := Host.absf main_arg8
  let main_cst_8 : FVec F S_ .f32 := constant S_ .f32 0x7F800000#32
  let main_v25 : FVec F S700x700 .f32 := broadcastInDim S700x700 ![] bcast_S_S700x700 main_cst_8
  let main_v26 : IVec S700x700 1 := cmpf .olt main_v24 main_v25
  let main_c_9 : IVec S_ 1 := constantI S_ 1 1#1
  let main_v27 : IVec S_ 1 := (fun x v => Host.reduce IntOp.andi x v reducesTo_S700x700_S_d0_1 h_S_) main_v26 main_c_9
  let main_v28 : IVec S_ 1 := andi main_v23 main_v27
  let main_v29 : FVec F S700 .f32 := Host.absf main_arg9
  let main_cst_10 : FVec F S_ .f32 := constant S_ .f32 0x7F800000#32
  let main_v30 : FVec F S700 .f32 := broadcastInDim S700 ![] bcast_S_S700 main_cst_10
  let main_v31 : IVec S700 1 := cmpf .olt main_v29 main_v30
  let main_c_11 : IVec S_ 1 := constantI S_ 1 1#1
  let main_v32 : IVec S_ 1 := (fun x v => Host.reduce IntOp.andi x v reducesTo_S700_S_d0 h_S_) main_v31 main_c_11
  let main_v33 : IVec S_ 1 := andi main_v28 main_v32
  fn_part2 (F := F) main_arg10 main_arg11 main_arg12 main_arg13 main_v33

def fn {F : FTy → Type} [FloatOps F] (main_arg0 : IVec S65536x7 32) (main_arg1 : IVec S65536x7 32) (main_arg2 : IVec S65536x7 32) (main_arg3 : FVec F S32000x100 .f32) (main_arg4 : FVec F S50x100 .f32) (main_arg5 : FVec F S45x100 .f32) (main_arg6 : FVec F S700x700 .f32) (main_arg7 : FVec F S700 .f32) (main_arg8 : FVec F S700x700 .f32) (main_arg9 : FVec F S700 .f32) (main_arg10 : FVec F S700x700 .f32) (main_arg11 : FVec F S700 .f32) (main_arg12 : FVec F S700x93 .f32) (main_arg13 : FVec F S93 .f32) : IVec S_ 1 :=
  let main_v0 : FVec F S32000x100 .f32 := Host.absf main_arg3
  let main_cst : FVec F S_ .f32 := constant S_ .f32 0x7F800000#32
  let main_v1 : FVec F S32000x100 .f32 := broadcastInDim S32000x100 ![] bcast_S_S32000x100 main_cst
  let main_v2 : IVec S32000x100 1 := cmpf .olt main_v0 main_v1
  let main_c : IVec S_ 1 := constantI S_ 1 1#1
  let main_v3 : IVec S_ 1 := (fun x v => Host.reduce IntOp.andi x v reducesTo_S32000x100_S_d0_1 h_S_) main_v2 main_c
  let main_v4 : FVec F S50x100 .f32 := Host.absf main_arg4
  let main_cst_0 : FVec F S_ .f32 := constant S_ .f32 0x7F800000#32
  let main_v5 : FVec F S50x100 .f32 := broadcastInDim S50x100 ![] bcast_S_S50x100 main_cst_0
  let main_v6 : IVec S50x100 1 := cmpf .olt main_v4 main_v5
  let main_c_1 : IVec S_ 1 := constantI S_ 1 1#1
  let main_v7 : IVec S_ 1 := (fun x v => Host.reduce IntOp.andi x v reducesTo_S50x100_S_d0_1 h_S_) main_v6 main_c_1
  let main_v8 : IVec S_ 1 := andi main_v3 main_v7
  let main_v9 : FVec F S45x100 .f32 := Host.absf main_arg5
  let main_cst_2 : FVec F S_ .f32 := constant S_ .f32 0x7F800000#32
  let main_v10 : FVec F S45x100 .f32 := broadcastInDim S45x100 ![] bcast_S_S45x100 main_cst_2
  let main_v11 : IVec S45x100 1 := cmpf .olt main_v9 main_v10
  let main_c_3 : IVec S_ 1 := constantI S_ 1 1#1
  let main_v12 : IVec S_ 1 := (fun x v => Host.reduce IntOp.andi x v reducesTo_S45x100_S_d0_1 h_S_) main_v11 main_c_3
  let main_v13 : IVec S_ 1 := andi main_v8 main_v12
  let main_v14 : FVec F S700x700 .f32 := Host.absf main_arg6
  let main_cst_4 : FVec F S_ .f32 := constant S_ .f32 0x7F800000#32
  let main_v15 : FVec F S700x700 .f32 := broadcastInDim S700x700 ![] bcast_S_S700x700 main_cst_4
  let main_v16 : IVec S700x700 1 := cmpf .olt main_v14 main_v15
  fn_part1 (F := F) main_arg7 main_arg8 main_arg9 main_arg10 main_arg11 main_arg12 main_arg13 main_v13 main_v16
-- ==== Kernel.lean ====
abbrev S65536x7 : Shape := ⟨2, ![65536, 7]⟩
abbrev S32000x100 : Shape := ⟨2, ![32000, 100]⟩
abbrev S50x100 : Shape := ⟨2, ![50, 100]⟩
abbrev S45x100 : Shape := ⟨2, ![45, 100]⟩
abbrev S700x700 : Shape := ⟨2, ![700, 700]⟩
abbrev S700 : Shape := ⟨1, ![700]⟩
abbrev S700x93 : Shape := ⟨2, ![700, 93]⟩
abbrev S93 : Shape := ⟨1, ![93]⟩
abbrev S_ : Shape := ⟨0, ![]⟩
abbrev S65536x7x1 : Shape := ⟨3, ![65536, 7, 1]⟩
abbrev S65536x7x100 : Shape := ⟨3, ![65536, 7, 100]⟩
abbrev S65536x700 : Shape := ⟨2, ![65536, 700]⟩
abbrev S1x700 : Shape := ⟨2, ![1, 700]⟩
abbrev S1x93 : Shape := ⟨2, ![1, 93]⟩
abbrev S65536x93 : Shape := ⟨2, ![65536, 93]⟩
abbrev S1024x700 : Shape := ⟨2, ![1024, 700]⟩
abbrev S1024x93 : Shape := ⟨2, ![1024, 93]⟩
abbrev S1024 : Shape := ⟨1, ![1024]⟩
abbrev S1024x1 : Shape := ⟨2, ![1024, 1]⟩

abbrev nBuf : Space → Nat
  | .hbm => 69
  | .vmem => 16
  | .smem => 0
  | _ => 0

abbrev bufTy : (tb : Table) → Fin (tcTables nBuf tb) → BufTy
  | .hbm, ⟨0, _⟩ => ⟨S65536x7, .i32⟩
  | .hbm, ⟨1, _⟩ => ⟨S65536x7, .i32⟩
  | .hbm, ⟨2, _⟩ => ⟨S65536x7, .i32⟩
  | .hbm, ⟨3, _⟩ => ⟨S32000x100, .f32⟩
  | .hbm, ⟨4, _⟩ => ⟨S50x100, .f32⟩
  | .hbm, ⟨5, _⟩ => ⟨S45x100, .f32⟩
  | .hbm, ⟨6, _⟩ => ⟨S700x700, .f32⟩
  | .hbm, ⟨7, _⟩ => ⟨S700, .f32⟩
  | .hbm, ⟨8, _⟩ => ⟨S700x700, .f32⟩
  | .hbm, ⟨9, _⟩ => ⟨S700, .f32⟩
  | .hbm, ⟨10, _⟩ => ⟨S700x700, .f32⟩
  | .hbm, ⟨11, _⟩ => ⟨S700, .f32⟩
  | .hbm, ⟨12, _⟩ => ⟨S700x93, .f32⟩
  | .hbm, ⟨13, _⟩ => ⟨S93, .f32⟩
  | .hbm, ⟨14, _⟩ => ⟨S_, .i32⟩
  | .hbm, ⟨15, _⟩ => ⟨S65536x7, .i32⟩
  | .hbm, ⟨16, _⟩ => ⟨S65536x7, .i1⟩
  | .hbm, ⟨17, _⟩ => ⟨S65536x7x1, .i1⟩
  | .hbm, ⟨18, _⟩ => ⟨S_, .i32⟩
  | .hbm, ⟨19, _⟩ => ⟨S_, .i32⟩
  | .hbm, ⟨20, _⟩ => ⟨S65536x7, .i32⟩
  | .hbm, ⟨21, _⟩ => ⟨S65536x7, .i32⟩
  | .hbm, ⟨22, _⟩ => ⟨S_, .i32⟩
  | .hbm, ⟨23, _⟩ => ⟨S65536x7, .i32⟩
  | .hbm, ⟨24, _⟩ => ⟨S65536x7, .i1⟩
  | .hbm, ⟨25, _⟩ => ⟨S_, .i32⟩
  | .hbm, ⟨26, _⟩ => ⟨S65536x7, .i32⟩
  | .hbm, ⟨27, _⟩ => ⟨S65536x7, .i32⟩
  | .hbm, ⟨28, _⟩ => ⟨S65536x7, .i32⟩
  | .hbm, ⟨29, _⟩ => ⟨S65536x7x1, .i32⟩
  | .hbm, ⟨30, _⟩ => ⟨S65536x7x100, .f32⟩
  | .hbm, ⟨31, _⟩ => ⟨S_, .f32⟩
  | .hbm, ⟨32, _⟩ => ⟨S_, .f32⟩
  | .hbm, ⟨33, _⟩ => ⟨S65536x7x100, .i1⟩
  | .hbm, ⟨34, _⟩ => ⟨S65536x7x100, .f32⟩
  | .hbm, ⟨35, _⟩ => ⟨S65536x7x100, .f32⟩
  | .hbm, ⟨36, _⟩ => ⟨S_, .i32⟩
  | .hbm, ⟨37, _⟩ => ⟨S65536x7, .i32⟩
  | .hbm, ⟨38, _⟩ => ⟨S65536x7, .i1⟩
  | .hbm, ⟨39, _⟩ => ⟨S_, .i32⟩
  | .hbm, ⟨40, _⟩ => ⟨S65536x7, .i32⟩
  | .hbm, ⟨41, _⟩ => ⟨S65536x7, .i32⟩
  | .hbm, ⟨42, _⟩ => ⟨S65536x7, .i32⟩
  | .hbm, ⟨43, _⟩ => ⟨S65536x7x1, .i32⟩
  | .hbm, ⟨44, _⟩ => ⟨S65536x7x100, .f32⟩
  | .hbm, ⟨45, _⟩ => ⟨S_, .i32⟩
  | .hbm, ⟨46, _⟩ => ⟨S65536x7, .i32⟩
  | .hbm, ⟨47, _⟩ => ⟨S65536x7, .i1⟩
  | .hbm, ⟨48, _⟩ => ⟨S_, .i32⟩
  | .hbm, ⟨49, _⟩ => ⟨S65536x7, .i32⟩
  | .hbm, ⟨50, _⟩ => ⟨S65536x7, .i32⟩
  | .hbm, ⟨51, _⟩ => ⟨S65536x7, .i32⟩
  | .hbm, ⟨52, _⟩ => ⟨S65536x7x1, .i32⟩
  | .hbm, ⟨53, _⟩ => ⟨S65536x7x100, .f32⟩
  | .hbm, ⟨54, _⟩ => ⟨S65536x700, .f32⟩
  | .hbm, ⟨55, _⟩ => ⟨S65536x700, .bf16⟩
  | .hbm, ⟨56, _⟩ => ⟨S65536x700, .f32⟩
  | .hbm, ⟨57, _⟩ => ⟨S65536x700, .bf16⟩
  | .hbm, ⟨58, _⟩ => ⟨S65536x700, .f32⟩
  | .hbm, ⟨59, _⟩ => ⟨S65536x700, .bf16⟩
  | .hbm, ⟨60, _⟩ => ⟨S700x700, .bf16⟩
  | .hbm, ⟨61, _⟩ => ⟨S700x700, .bf16⟩
  | .hbm, ⟨62, _⟩ => ⟨S700x700, .bf16⟩
  | .hbm, ⟨63, _⟩ => ⟨S700x93, .bf16⟩
  | .hbm, ⟨64, _⟩ => ⟨S1x700, .f32⟩
  | .hbm, ⟨65, _⟩ => ⟨S1x700, .f32⟩
  | .hbm, ⟨66, _⟩ => ⟨S1x700, .f32⟩
  | .hbm, ⟨67, _⟩ => ⟨S1x93, .f32⟩
  | .hbm, ⟨68, _⟩ => ⟨S65536x93, .f32⟩
  | .local _ .vmem, ⟨0, _⟩ => ⟨S1024x700, .bf16⟩
  | .local _ .vmem, ⟨1, _⟩ => ⟨S1024x700, .bf16⟩
  | .local _ .vmem, ⟨2, _⟩ => ⟨S1024x700, .bf16⟩
  | .local _ .vmem, ⟨3, _⟩ => ⟨S1024x700, .bf16⟩
  | .local _ .vmem, ⟨4, _⟩ => ⟨S1024x700, .bf16⟩
  | .local _ .vmem, ⟨5, _⟩ => ⟨S1024x700, .bf16⟩
  | .local _ .vmem, ⟨6, _⟩ => ⟨S700x700, .bf16⟩
  | .local _ .vmem, ⟨7, _⟩ => ⟨S1x700, .f32⟩
  | .local _ .vmem, ⟨8, _⟩ => ⟨S700x700, .bf16⟩
  | .local _ .vmem, ⟨9, _⟩ => ⟨S1x700, .f32⟩
  | .local _ .vmem, ⟨10, _⟩ => ⟨S700x700, .bf16⟩
  | .local _ .vmem, ⟨11, _⟩ => ⟨S1x700, .f32⟩
  | .local _ .vmem, ⟨12, _⟩ => ⟨S700x93, .bf16⟩
  | .local _ .vmem, ⟨13, _⟩ => ⟨S1x93, .f32⟩
  | .local _ .vmem, ⟨14, _⟩ => ⟨S1024x93, .f32⟩
  | .local _ .vmem, ⟨15, _⟩ => ⟨S1024x93, .f32⟩
  | _, _ => ⟨S65536x7, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_v3 : Ref sig .tc := ⟨.hbm, 21, rfl⟩
abbrev main_c_1 : Ref sig .tc := ⟨.hbm, 22, rfl⟩
abbrev main_v4 : Ref sig .tc := ⟨.hbm, 23, rfl⟩
abbrev main_v5 : Ref sig .tc := ⟨.hbm, 24, rfl⟩
abbrev main_c_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v11 : Ref sig .tc := ⟨.hbm, 35, rfl⟩
abbrev main_c_3 : Ref sig .tc := ⟨.hbm, 36, rfl⟩
abbrev main_v12 : Ref sig .tc := ⟨.hbm, 37, rfl⟩
abbrev main_v13 : Ref sig .tc := ⟨.hbm, 38, rfl⟩
abbrev main_c_4 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_5 : Ref sig .tc := ⟨.hbm, 45, rfl⟩
abbrev main_v19 : Ref sig .tc := ⟨.hbm, 46, rfl⟩
abbrev main_v20 : Ref sig .tc := ⟨.hbm, 47, rfl⟩
abbrev main_c_6 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x700 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x700 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x700 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S700x700 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x700 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S700x700 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x700 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S700x700 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x700 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S700x93 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x93 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x93 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S65536x7 : S_.BroadcastsInDim S65536x7 (![] : Fin 0 → Fin S65536x7.rank)
  bcast_S65536x7_S65536x7x1_0_1 : S65536x7.BroadcastsInDim S65536x7x1 (![0, 1] : Fin 2 → Fin S65536x7x1.rank)
  bcast_S65536x7x1_S65536x7x100_0_1_2 : S65536x7x1.BroadcastsInDim S65536x7x100 (![0, 1, 2] : Fin 3 → Fin S65536x7x100.rank)
  bcast_S_S65536x7x100 : S_.BroadcastsInDim S65536x7x100 (![] : Fin 0 → Fin S65536x7x100.rank)
  shapeCasts_S65536x7x100_S65536x700 : S65536x7x100.ShapeCasts S65536x700
  bitsLt_bf16_f32 : FTy.bits .bf16 < FTy.bits .f32
  shapeCasts_S700_S1x700 : S700.ShapeCasts S1x700
  shapeCasts_S93_S1x93 : S93.ShapeCasts S1x93
  inb_S1024x700_S1024x700_0_0 : ∀ a, (![0, 0] : Fin 2 → Nat) a + S1024x700.size a ≤ S1024x700.size a
  h_S1024x700 : 0 < S1024x700.numel
  shapeCasts_S1024x700_S1024x700 : S1024x700.ShapeCasts S1024x700
  inb_S700x700_S700x700_0_0 : ∀ a, (![0, 0] : Fin 2 → Nat) a + S700x700.size a ≤ S700x700.size a
  h_S700x700 : 0 < S700x700.numel
  shapeCasts_S700x700_S700x700 : S700x700.ShapeCasts S700x700
  inb_S1x700_S1x700_0_0 : ∀ a, (![0, 0] : Fin 2 → Nat) a + S1x700.size a ≤ S1x700.size a
  h_S1x700 : 0 < S1x700.numel
  shapeCasts_S1x700_S1x700 : S1x700.ShapeCasts S1x700
  broadcasts_S1x700_S1024x700 : S1x700.Broadcasts S1024x700
  inb_S700x93_S700x93_0_0 : ∀ a, (![0, 0] : Fin 2 → Nat) a + S700x93.size a ≤ S700x93.size a
  h_S700x93 : 0 < S700x93.numel
  shapeCasts_S700x93_S700x93 : S700x93.ShapeCasts S700x93
  inb_S1x93_S1x93_0_0 : ∀ a, (![0, 0] : Fin 2 → Nat) a + S1x93.size a ≤ S1x93.size a
  h_S1x93 : 0 < S1x93.numel
  shapeCasts_S1x93_S1x93 : S1x93.ShapeCasts S1x93
  broadcasts_S1x93_S1024x93 : S1x93.Broadcasts S1024x93
  reduces_S1024x93_S1024 : S1024x93.Reduces [1] S1024
  shapeCasts_S1024_S1024x1 : S1024.ShapeCasts S1024x1
  broadcasts_S1024x1_S1024x93 : S1024x1.Broadcasts S1024x93
  inb_S1024x93_S1024x93_0_0 : ∀ a, (![0, 0] : Fin 2 → Nat) a + S1024x93.size a ≤ S1024x93.size a
  h_S1024x93 : 0 < S1024x93.numel
  gather_S32000x100_S65536x7x1_S65536x7x100_2_0_n_n_0_2_1100_wf : GatherDims.WF S32000x100 S65536x7x1 S65536x7x100 [2] [0] [] [0] [] 2 ![1, 100]
  gather_S50x100_S65536x7x1_S65536x7x100_2_0_n_n_0_2_1100_wf : GatherDims.WF S50x100 S65536x7x1 S65536x7x100 [2] [0] [] [0] [] 2 ![1, 100]
  gather_S45x100_S65536x7x1_S65536x7x100_2_0_n_n_0_2_1100_wf : GatherDims.WF S45x100 S65536x7x1 S65536x7x100 [2] [0] [] [0] [] 2 ![1, 100]
  dot_S1024x700_S700x700_S1024x700_1_0_0_1_n_n_wf : DotDims.WF S1024x700 S700x700 S1024x700 [1] [0] [0] [1] [] []
  dot_S1024x700_S700x93_S1024x93_1_0_0_1_n_n_wf : DotDims.WF S1024x700 S700x93 S1024x93 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x700.size a ≤ S65536x700.size a
  hwx0_0 : ∀ i : grid0.Coords, EltTy.bits .bf16 = 32 ∨ (Rect.block (s := S65536x700) S1024x700.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x700.size a ≤ S65536x700.size a
  hwx0_1 : ∀ i : grid0.Coords, EltTy.bits .bf16 = 32 ∨ (Rect.block (s := S65536x700) S1024x700.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x700.size a ≤ S65536x700.size a
  hwx0_2 : ∀ i : grid0.Coords, EltTy.bits .bf16 = 32 ∨ (Rect.block (s := S65536x700) S1024x700.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S700x700.size a ≤ S700x700.size a
  hwx0_3 : ∀ i : grid0.Coords, EltTy.bits .bf16 = 32 ∨ (Rect.block (s := S700x700) S700x700.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x700.size a ≤ S1x700.size a
  hwx0_4 : ∀ i : grid0.Coords, EltTy.bits .f32 = 32 ∨ (Rect.block (s := S1x700) S1x700.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S700x700.size a ≤ S700x700.size a
  hwx0_5 : ∀ i : grid0.Coords, EltTy.bits .bf16 = 32 ∨ (Rect.block (s := S700x700) S700x700.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x700.size a ≤ S1x700.size a
  hwx0_6 : ∀ i : grid0.Coords, EltTy.bits .f32 = 32 ∨ (Rect.block (s := S1x700) S1x700.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S700x700.size a ≤ S700x700.size a
  hwx0_7 : ∀ i : grid0.Coords, EltTy.bits .bf16 = 32 ∨ (Rect.block (s := S700x700) S700x700.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x700.size a ≤ S1x700.size a
  hwx0_8 : ∀ i : grid0.Coords, EltTy.bits .f32 = 32 ∨ (Rect.block (s := S1x700) S1x700.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S700x93.size a ≤ S700x93.size a
  hwx0_9 : ∀ i : grid0.Coords, EltTy.bits .bf16 = 32 ∨ (Rect.block (s := S700x93) S700x93.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x93.size a ≤ S1x93.size a
  hwx0_10 : ∀ i : grid0.Coords, EltTy.bits .f32 = 32 ∨ (Rect.block (s := S1x93) S1x93.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x93.size a ≤ S65536x93.size a
  hwx0_11 : ∀ i : grid0.Coords, EltTy.bits .f32 = 32 ∨ (Rect.block (s := S65536x93) S1024x93.size (cc0_transform_11 i) (hinb0_11 i)).WholeWords (EltTy.packing .f32)

variable [Facts₀]

def gather_S32000x100_S65536x7x1_S65536x7x100_2_0_n_n_0_2_1100 : GatherDims S32000x100 S65536x7x1 S65536x7x100 where
  offsetDims := [2]
  collapsedSliceDims := [0]
  operandBatchingDims := []
  startIndicesBatchingDims := []
  startIndexMap := [0]
  indexVectorDim := 2
  sliceSizes := ![1, 100]
  wf := gather_S32000x100_S65536x7x1_S65536x7x100_2_0_n_n_0_2_1100_wf
def gather_S50x100_S65536x7x1_S65536x7x100_2_0_n_n_0_2_1100 : GatherDims S50x100 S65536x7x1 S65536x7x100 where
  offsetDims := [2]
  collapsedSliceDims := [0]
  operandBatchingDims := []
  startIndicesBatchingDims := []
  startIndexMap := [0]
  indexVectorDim := 2
  sliceSizes := ![1, 100]
  wf := gather_S50x100_S65536x7x1_S65536x7x100_2_0_n_n_0_2_1100_wf
def gather_S45x100_S65536x7x1_S65536x7x100_2_0_n_n_0_2_1100 : GatherDims S45x100 S65536x7x1 S65536x7x100 where
  offsetDims := [2]
  collapsedSliceDims := [0]
  operandBatchingDims := []
  startIndicesBatchingDims := []
  startIndexMap := [0]
  indexVectorDim := 2
  sliceSizes := ![1, 100]
  wf := gather_S45x100_S65536x7x1_S65536x7x100_2_0_n_n_0_2_1100_wf
def dot_S1024x700_S700x700_S1024x700_1_0_0_1_n_n : DotDims S1024x700 S700x700 S1024x700 where
  lhsContracting := [1]
  rhsContracting := [0]
  lhsNonContracting := [0]
  rhsNonContracting := [1]
  lhsBatch := []
  rhsBatch := []
  wf := dot_S1024x700_S700x700_S1024x700_1_0_0_1_n_n_wf
def dot_S1024x700_S700x93_S1024x93_1_0_0_1_n_n : DotDims S1024x700 S700x93 S1024x93 where
  lhsContracting := [1]
  rhsContracting := [0]
  lhsNonContracting := [0]
  rhsNonContracting := [1]
  lhsBatch := []
  rhsBatch := []
  wf := dot_S1024x700_S700x93_S1024x93_1_0_0_1_n_n_wf

abbrev win0_0 : Pipeline.Window sig grid0 :=
  Pipeline.Window.ofSpec (Memref.whole main_v27) S1024x700.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1024x700.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1024x700.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S700x700.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x700.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S700x700.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x700.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S700x700.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x700.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S700x93.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x93.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v40) S1024x93.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x7 : Shape := ⟨2, ![65536, 7]⟩
abbrev S32000x100 : Shape := ⟨2, ![32000, 100]⟩
abbrev S50x100 : Shape := ⟨2, ![50, 100]⟩
abbrev S45x100 : Shape := ⟨2, ![45, 100]⟩
abbrev S700x700 : Shape := ⟨2, ![700, 700]⟩
abbrev S700 : Shape := ⟨1, ![700]⟩
abbrev S700x93 : Shape := ⟨2, ![700, 93]⟩
abbrev S93 : Shape := ⟨1, ![93]⟩
abbrev S_ : Shape := ⟨0, ![]⟩
abbrev S65536x7x1 : Shape := ⟨3, ![65536, 7, 1]⟩
abbrev S65536x7x100 : Shape := ⟨3, ![65536, 7, 100]⟩
abbrev S65536x700 : Shape := ⟨2, ![65536, 700]⟩
abbrev S1x700 : Shape := ⟨2, ![1, 700]⟩
abbrev S65536x93 : Shape := ⟨2, ![65536, 93]⟩
abbrev S1x93 : Shape := ⟨2, ![1, 93]⟩
abbrev S65536 : Shape := ⟨1, ![65536]⟩
abbrev S65536x1 : Shape := ⟨2, ![65536, 1]⟩

abbrev nBuf : Space → Nat
  | .hbm => 91
  | .vmem => 0
  | .smem => 0
  | _ => 0

abbrev bufTy : (tb : Table) → Fin (tcTables nBuf tb) → BufTy
  | .hbm, ⟨0, _⟩ => ⟨S65536x7, .i32⟩
  | .hbm, ⟨1, _⟩ => ⟨S65536x7, .i32⟩
  | .hbm, ⟨2, _⟩ => ⟨S65536x7, .i32⟩
  | .hbm, ⟨3, _⟩ => ⟨S32000x100, .f32⟩
  | .hbm, ⟨4, _⟩ => ⟨S50x100, .f32⟩
  | .hbm, ⟨5, _⟩ => ⟨S45x100, .f32⟩
  | .hbm, ⟨6, _⟩ => ⟨S700x700, .f32⟩
  | .hbm, ⟨7, _⟩ => ⟨S700, .f32⟩
  | .hbm, ⟨8, _⟩ => ⟨S700x700, .f32⟩
  | .hbm, ⟨9, _⟩ => ⟨S700, .f32⟩
  | .hbm, ⟨10, _⟩ => ⟨S700x700, .f32⟩
  | .hbm, ⟨11, _⟩ => ⟨S700, .f32⟩
  | .hbm, ⟨12, _⟩ => ⟨S700x93, .f32⟩
  | .hbm, ⟨13, _⟩ => ⟨S93, .f32⟩
  | .hbm, ⟨14, _⟩ => ⟨S_, .i32⟩
  | .hbm, ⟨15, _⟩ => ⟨S65536x7, .i32⟩
  | .hbm, ⟨16, _⟩ => ⟨S65536x7, .i1⟩
  | .hbm, ⟨17, _⟩ => ⟨S65536x7x1, .i1⟩
  | .hbm, ⟨18, _⟩ => ⟨S_, .i32⟩
  | .hbm, ⟨19, _⟩ => ⟨S_, .i32⟩
  | .hbm, ⟨20, _⟩ => ⟨S65536x7, .i32⟩
  | .hbm, ⟨21, _⟩ => ⟨S65536x7, .i32⟩
  | .hbm, ⟨22, _⟩ => ⟨S_, .i32⟩
  | .hbm, ⟨23, _⟩ => ⟨S65536x7, .i32⟩
  | .hbm, ⟨24, _⟩ => ⟨S65536x7, .i1⟩
  | .hbm, ⟨25, _⟩ => ⟨S_, .i32⟩
  | .hbm, ⟨26, _⟩ => ⟨S65536x7, .i32⟩
  | .hbm, ⟨27, _⟩ => ⟨S65536x7, .i32⟩
  | .hbm, ⟨28, _⟩ => ⟨S65536x7, .i32⟩
  | .hbm, ⟨29, _⟩ => ⟨S65536x7x1, .i32⟩
  | .hbm, ⟨30, _⟩ => ⟨S65536x7x100, .f32⟩
  | .hbm, ⟨31, _⟩ => ⟨S_, .f32⟩
  | .hbm, ⟨32, _⟩ => ⟨S_, .f32⟩
  | .hbm, ⟨33, _⟩ => ⟨S65536x7x100, .i1⟩
  | .hbm, ⟨34, _⟩ => ⟨S65536x7x100, .f32⟩
  | .hbm, ⟨35, _⟩ => ⟨S65536x7x100, .f32⟩
  | .hbm, ⟨36, _⟩ => ⟨S65536x700, .f32⟩
  | .hbm, ⟨37, _⟩ => ⟨S_, .i32⟩
  | .hbm, ⟨38, _⟩ => ⟨S65536x7, .i32⟩
  | .hbm, ⟨39, _⟩ => ⟨S65536x7, .i1⟩
  | .hbm, ⟨40, _⟩ => ⟨S_, .i32⟩
  | .hbm, ⟨41, _⟩ => ⟨S65536x7, .i32⟩
  | .hbm, ⟨42, _⟩ => ⟨S65536x7, .i32⟩
  | .hbm, ⟨43, _⟩ => ⟨S65536x7, .i32⟩
  | .hbm, ⟨44, _⟩ => ⟨S65536x7x1, .i32⟩
  | .hbm, ⟨45, _⟩ => ⟨S65536x7x100, .f32⟩
  | .hbm, ⟨46, _⟩ => ⟨S65536x700, .f32⟩
  | .hbm, ⟨47, _⟩ => ⟨S_, .i32⟩
  | .hbm, ⟨48, _⟩ => ⟨S65536x7, .i32⟩
  | .hbm, ⟨49, _⟩ => ⟨S65536x7, .i1⟩
  | .hbm, ⟨50, _⟩ => ⟨S_, .i32⟩
  | .hbm, ⟨51, _⟩ => ⟨S65536x7, .i32⟩
  | .hbm, ⟨52, _⟩ => ⟨S65536x7, .i32⟩
  | .hbm, ⟨53, _⟩ => ⟨S65536x7, .i32⟩
  | .hbm, ⟨54, _⟩ => ⟨S65536x7x1, .i32⟩
  | .hbm, ⟨55, _⟩ => ⟨S65536x7x100, .f32⟩
  | .hbm, ⟨56, _⟩ => ⟨S65536x700, .f32⟩
  | .hbm, ⟨57, _⟩ => ⟨S65536x700, .f32⟩
  | .hbm, ⟨58, _⟩ => ⟨S1x700, .f32⟩
  | .hbm, ⟨59, _⟩ => ⟨S65536x700, .f32⟩
  | .hbm, ⟨60, _⟩ => ⟨S65536x700, .f32⟩
  | .hbm, ⟨61, _⟩ => ⟨S65536x700, .f32⟩
  | .hbm, ⟨62, _⟩ => ⟨S1x700, .f32⟩
  | .hbm, ⟨63, _⟩ => ⟨S65536x700, .f32⟩
  | .hbm, ⟨64, _⟩ => ⟨S65536x700, .f32⟩
  | .hbm, ⟨65, _⟩ => ⟨S65536x700, .f32⟩
  | .hbm, ⟨66, _⟩ => ⟨S65536x700, .f32⟩
  | .hbm, ⟨67, _⟩ => ⟨S1x700, .f32⟩
  | .hbm, ⟨68, _⟩ => ⟨S65536x700, .f32⟩
  | .hbm, ⟨69, _⟩ => ⟨S65536x700, .f32⟩
  | .hbm, ⟨70, _⟩ => ⟨S65536x700, .f32⟩
  | .hbm, ⟨71, _⟩ => ⟨S65536x700, .f32⟩
  | .hbm, ⟨72, _⟩ => ⟨S65536x700, .f32⟩
  | .hbm, ⟨73, _⟩ => ⟨S65536x93, .f32⟩
  | .hbm, ⟨74, _⟩ => ⟨S1x93, .f32⟩
  | .hbm, ⟨75, _⟩ => ⟨S65536x93, .f32⟩
  | .hbm, ⟨76, _⟩ => ⟨S65536x93, .f32⟩
  | .hbm, ⟨77, _⟩ => ⟨S_, .f32⟩
  | .hbm, ⟨78, _⟩ => ⟨S65536, .f32⟩
  | .hbm, ⟨79, _⟩ => ⟨S_, .f32⟩
  | .hbm, ⟨80, _⟩ => ⟨S65536, .f32⟩
  | .hbm, ⟨81, _⟩ => ⟨S65536, .f32⟩
  | .hbm, ⟨82, _⟩ => ⟨S65536x1, .f32⟩
  | .hbm, ⟨83, _⟩ => ⟨S65536x93, .f32⟩
  | .hbm, ⟨84, _⟩ => ⟨S65536x93, .f32⟩
  | .hbm, ⟨85, _⟩ => ⟨S65536x93, .f32⟩
  | .hbm, ⟨86, _⟩ => ⟨S_, .f32⟩
  | .hbm, ⟨87, _⟩ => ⟨S65536, .f32⟩
  | .hbm, ⟨88, _⟩ => ⟨S65536x1, .f32⟩
  | .hbm, ⟨89, _⟩ => ⟨S65536x93, .f32⟩
  | .hbm, ⟨90, _⟩ => ⟨S65536x93, .f32⟩
  | _, _ => ⟨S65536x7, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_v3 : Ref sig .tc := ⟨.hbm, 21, rfl⟩
abbrev main_c_1 : Ref sig .tc := ⟨.hbm, 22, rfl⟩
abbrev main_v4 : Ref sig .tc := ⟨.hbm, 23, rfl⟩
abbrev main_v5 : Ref sig .tc := ⟨.hbm, 24, rfl⟩
abbrev main_c_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v11 : Ref sig .tc := ⟨.hbm, 35, rfl⟩
abbrev main_v12 : Ref sig .tc := ⟨.hbm, 36, rfl⟩
abbrev main_c_3 : Ref sig .tc := ⟨.hbm, 37, rfl⟩
abbrev main_v13 : Ref sig .tc := ⟨.hbm, 38, rfl⟩
abbrev main_v14 : Ref sig .tc := ⟨.hbm, 39, rfl⟩
abbrev main_c_4 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_c_6 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]

class Facts₀ : Prop where
  bcast_S_S65536x7 : S_.BroadcastsInDim S65536x7 (![] : Fin 0 → Fin S65536x7.rank)
  bcast_S65536x7_S65536x7x1_0_1 : S65536x7.BroadcastsInDim S65536x7x1 (![0, 1] : Fin 2 → Fin S65536x7x1.rank)
  bcast_S65536x7x1_S65536x7x100_0_1_2 : S65536x7x1.BroadcastsInDim S65536x7x100 (![0, 1, 2] : Fin 3 → Fin S65536x7x100.rank)
  bcast_S_S65536x7x100 : S_.BroadcastsInDim S65536x7x100 (![] : Fin 0 → Fin S65536x7x100.rank)
  shapeCasts_S65536x7x100_S65536x700 : S65536x7x100.ShapeCasts S65536x700
  bcast_S700_S1x700_1 : S700.BroadcastsInDim S1x700 (![1] : Fin 1 → Fin S1x700.rank)
  bcast_S1x700_S65536x700_0_1 : S1x700.BroadcastsInDim S65536x700 (![0, 1] : Fin 2 → Fin S65536x700.rank)
  bcast_S93_S1x93_1 : S93.BroadcastsInDim S1x93 (![1] : Fin 1 → Fin S1x93.rank)
  bcast_S1x93_S65536x93_0_1 : S1x93.BroadcastsInDim S65536x93 (![0, 1] : Fin 2 → Fin S65536x93.rank)
  reducesTo_S65536x93_S65536_d1 : S65536x93.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x93_0_1 : S65536x1.BroadcastsInDim S65536x93 (![0, 1] : Fin 2 → Fin S65536x93.rank)
  gather_S32000x100_S65536x7x1_S65536x7x100_2_0_n_n_0_2_1100_wf : GatherDims.WF S32000x100 S65536x7x1 S65536x7x100 [2] [0] [] [0] [] 2 ![1, 100]
  gather_S50x100_S65536x7x1_S65536x7x100_2_0_n_n_0_2_1100_wf : GatherDims.WF S50x100 S65536x7x1 S65536x7x100 [2] [0] [] [0] [] 2 ![1, 100]
  gather_S45x100_S65536x7x1_S65536x7x100_2_0_n_n_0_2_1100_wf : GatherDims.WF S45x100 S65536x7x1 S65536x7x100 [2] [0] [] [0] [] 2 ![1, 100]
  dot_S65536x700_S700x700_S65536x700_1_0_0_1_n_n_wf : DotDims.WF S65536x700 S700x700 S65536x700 [1] [0] [0] [1] [] []
  dot_S65536x700_S700x93_S65536x93_1_0_0_1_n_n_wf : DotDims.WF S65536x700 S700x93 S65536x93 [1] [0] [0] [1] [] []

variable [Facts₀]

def gather_S32000x100_S65536x7x1_S65536x7x100_2_0_n_n_0_2_1100 : GatherDims S32000x100 S65536x7x1 S65536x7x100 where
  offsetDims := [2]
  collapsedSliceDims := [0]
  operandBatchingDims := []
  startIndicesBatchingDims := []
  startIndexMap := [0]
  indexVectorDim := 2
  sliceSizes := ![1, 100]
  wf := gather_S32000x100_S65536x7x1_S65536x7x100_2_0_n_n_0_2_1100_wf
def gather_S50x100_S65536x7x1_S65536x7x100_2_0_n_n_0_2_1100 : GatherDims S50x100 S65536x7x1 S65536x7x100 where
  offsetDims := [2]
  collapsedSliceDims := [0]
  operandBatchingDims := []
  startIndicesBatchingDims := []
  startIndexMap := [0]
  indexVectorDim := 2
  sliceSizes := ![1, 100]
  wf := gather_S50x100_S65536x7x1_S65536x7x100_2_0_n_n_0_2_1100_wf
def gather_S45x100_S65536x7x1_S65536x7x100_2_0_n_n_0_2_1100 : GatherDims S45x100 S65536x7x1 S65536x7x100 where
  offsetDims := [2]
  collapsedSliceDims := [0]
  operandBatchingDims := []
  startIndicesBatchingDims := []
  startIndexMap := [0]
  indexVectorDim := 2
  sliceSizes := ![1, 100]
  wf := gather_S45x100_S65536x7x1_S65536x7x100_2_0_n_n_0_2_1100_wf
def dot_S65536x700_S700x700_S65536x700_1_0_0_1_n_n : DotDims S65536x700 S700x700 S65536x700 where
  lhsContracting := [1]
  rhsContracting := [0]
  lhsNonContracting := [0]
  rhsNonContracting := [1]
  lhsBatch := []
  rhsBatch := []
  wf := dot_S65536x700_S700x700_S65536x700_1_0_0_1_n_n_wf
def dot_S65536x700_S700x93_S65536x93_1_0_0_1_n_n : DotDims S65536x700 S700x93 S65536x93 where
  lhsContracting := [1]
  rhsContracting := [0]
  lhsNonContracting := [0]
  rhsNonContracting := [1]
  lhsBatch := []
  rhsBatch := []
  wf := dot_S65536x700_S700x93_S65536x93_1_0_0_1_n_n_wf

class Facts : Prop extends Facts₀ where

variable [Facts]
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibSoftmax.lean ====
/-
  A softmax over the rows of a matrix, as vector operations spell it, read at an entry.

  The operations: the row maximum by a reduction over the second axis from `−∞`, taken once more against a splat of
  `−∞`, laid as a column and broadcast along the rows; the difference exponentiated; the row sum of the exponentials by a
  reduction from zero, laid as a column and broadcast; the quotient.  Read at `(r, t)` on the extended reals this is
  `exp (L r t − M r) / ∑ u, exp (L r u − M r)` with `M r = max (−∞) (max over the row, from −∞)`.  Variable extents.
-/
import Idealize.ShloMosaic.Lib.Pipeline.Value
import Idealize.ShloMosaic.Lib.ValueIdx
import Idealize.ShloMosaic.PureOps.Ideal.Laws
import proofs.«159635_j42296837931282_1_alg».proof.Proof.LibLayout

noncomputable section

namespace Cert.LibSoftmax

open Idealize.ShloMosaic Idealize.ShloMosaic.ValueIdx

/-- The softmax of one row of extended reals `L` at position `t`, the row's maximum taken from the value of the word
    `0xFF800000` (`−∞`) and once more against it. -/
def row {n : ℕ} (L : Fin n → EReal) (t : Fin n) : EReal :=
  Ideal.div (Ideal.exp (L t - max (Ideal.ofBits .f32 0xFF800000#32) (Finset.univ.fold max (Ideal.ofBits .f32 0xFF800000#32) L)))
    (∑ u : Fin n, Ideal.exp (L u - max (Ideal.ofBits .f32 0xFF800000#32) (Finset.univ.fold max (Ideal.ofBits .f32 0xFF800000#32) L)))

variable {a b : ℕ}

/-- The guarded row maximum as a vector over the rows. -/
def rowMaxVec (L : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32) : FVec Ideal ⟨1, ![a]⟩ .f32 :=
  maximumf (broadcast ⟨1, ![a]⟩ (Scalar.ofBits .f32 0xFF800000#32))
    (multiReduction .maximumf [1] ⟨1, ![a]⟩ L 0xFF800000#32 hr hφ hm)

/-- The exponentials of the matrix less its rows' guarded maxima. -/
def expMat (L : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32) (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  exp (subf L (broadcastTo ⟨2, ![a, b]⟩ (shapeCast ⟨2, ![a, 1]⟩ (rowMaxVec L hr hφ hm) hc) hb))

/-- The softmax of every row, as the vector operations compute it. -/
def softmaxMat (L : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32) (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf (expMat L hr hφ hm hc hb)
    (broadcastTo ⟨2, ![a, b]⟩ (shapeCast ⟨2, ![a, 1]⟩
      (multiReduction .add [1] ⟨1, ![a]⟩ (expMat L hr hφ hm hc hb) 0x00000000#32 hr hφ hz) hc) hb)

variable (L : FVec Ideal ⟨2, ![a, b]⟩ .f32) (hr : (⟨2, ![a, b]⟩ : Shape).Reduces [1] ⟨1, ![a]⟩) (hφ : FKind.Formats FTy.f32)
  (hm : (0xFF800000#32 : BitVec 32) = 0xFF800000#32) (hz : (0x00000000#32 : BitVec 32) = 0x00000000#32)
  (hc : (⟨1, ![a]⟩ : Shape).ShapeCasts ⟨2, ![a, 1]⟩) (hb : (⟨2, ![a, 1]⟩ : Shape).Broadcasts ⟨2, ![a, b]⟩)

/-- The guarded row maximum at row `r`. -/
theorem rowMaxVec_apply (r : Fin a) :
    rowMaxVec L hr hφ hm (ix1 r)
      = max (Ideal.ofBits .f32 0xFF800000#32) (Finset.univ.fold max (Ideal.ofBits .f32 0xFF800000#32) (fun t => L (ix2 r t))) := by
  unfold rowMaxVec
  rw [maximumf_apply, broadcast_apply, Cert.LibLayout.max_rows_apply]
  rfl

/-- The exponential at `(r, t)`. -/
theorem expMat_apply (r : Fin a) (t : Fin b) :
    expMat L hr hφ hm hc hb (ix2 r t)
      = Ideal.exp (L (ix2 r t) - max (Ideal.ofBits .f32 0xFF800000#32)
          (Finset.univ.fold max (Ideal.ofBits .f32 0xFF800000#32) (fun u => L (ix2 r u)))) := by
  unfold expMat
  show FloatOps.exp (subf L _ (ix2 r t)) = _
  rw [subf_apply, Cert.LibLayout.broadcastTo_a1_ab_apply, Cert.LibLayout.shapeCast_a_a1_apply, rowMaxVec_apply]
  rfl

/-- The softmax at `(r, t)`: the softmax of row `r` at position `t`. -/
theorem softmaxMat_apply (r : Fin a) (t : Fin b) :
    softmaxMat L hr hφ hm hz hc hb (ix2 r t) = row (fun u => L (ix2 r u)) t := by
  unfold softmaxMat
  rw [divf_apply, Cert.LibLayout.broadcastTo_a1_ab_apply, Cert.LibLayout.shapeCast_a_a1_apply,
    Cert.LibLayout.sum_rows_apply, expMat_apply]
  simp only [expMat_apply]
  rfl

end Cert.LibSoftmax

end
-- ==== Proof.Spec.lean ====
/-
  A feed-forward tagger's scores for one example, on the extended reals.

  One example carries three feature rows a₁, a₂, a₃ of length k (its word, part-of-speech and dependency embeddings laid
  end to end).  The hidden layer of width h is the sum of three affine maps,
      H q = ((∑ i, a₁ i · Ww i q + bw q) + (∑ i, a₂ i · Wp i q + bp q)) + (∑ i, a₃ i · Wd i q + bd q),
  its activation is the cube (H q · H q) · H q, the logits are L t = ∑ q, cube (H q) · Wo q t + bo t, and the scores are
  the softmax of the row L.  Everything is stated with the sums and products in the order written here; no law of the
  extended reals is used to rearrange them.
-/
import Idealize.ShloMosaic.PureOps.Ideal
import Idealize.ShloMosaic.Lib.ValueIdx
import proofs.«159635_j42296837931282_1_alg».proof.Proof.LibSoftmax

noncomputable section

namespace Cert.Tagger

open Idealize.ShloMosaic

/-- The weights of the network: three input maps k → h with their biases, and the output map h → o with its bias. -/
structure Params (k h o : ℕ) where
  Ww : Fin k → Fin h → EReal
  bw : Fin h → EReal
  Wp : Fin k → Fin h → EReal
  bp : Fin h → EReal
  Wd : Fin k → Fin h → EReal
  bd : Fin h → EReal
  Wo : Fin h → Fin o → EReal
  bo : Fin o → EReal

variable {k h o : ℕ}

/-- The hidden layer before its activation, at unit q. -/
def hidden (W : Params k h o) (a₁ a₂ a₃ : Fin k → EReal) (q : Fin h) : EReal :=
  ((∑ i : Fin k, a₁ i * W.Ww i q + W.bw q) + (∑ i : Fin k, a₂ i * W.Wp i q + W.bp q))
    + (∑ i : Fin k, a₃ i * W.Wd i q + W.bd q)

/-- The cube x · x · x, multiplied from the left. -/
def cube (x : EReal) : EReal := x * x * x

/-- The logit of class t. -/
def logit (W : Params k h o) (a₁ a₂ a₃ : Fin k → EReal) (t : Fin o) : EReal :=
  ∑ q : Fin h, cube (hidden W a₁ a₂ a₃ q) * W.Wo q t + W.bo t

/-- The score of class t: the softmax of the logits' row. -/
def score (W : Params k h o) (a₁ a₂ a₃ : Fin k → EReal) (t : Fin o) : EReal :=
  Cert.LibSoftmax.row (logit W a₁ a₂ a₃) t

/-- The score depends on the weights, the three feature rows and the class alone. -/
theorem score_congr {W W' : Params k h o} {a₁ a₁' a₂ a₂' a₃ a₃' : Fin k → EReal} {t t' : Fin o}
    (hW : W = W') (h₁ : a₁ = a₁') (h₂ : a₂ = a₂') (h₃ : a₃ = a₃') (ht : t = t') :
    score W a₁ a₂ a₃ t = score W' a₁' a₂' a₃' t' := by
  subst hW h₁ h₂ h₃ ht
  rfl

end Cert.Tagger

end
-- ==== Proof.KernelRow.lean ====
/-
  One example through the kernel's body, on the extended reals.

  The body works on a block of 1024 examples: three 1024 × 700 feature blocks, three 700 × 700 weight matrices with
  their 1 × 700 bias rows, and the 700 × 93 output map with its 1 × 93 bias row.  Each of its matrix products is
  accumulated into the zero matrix, so entry (r, q) of a product is the sum over i of X[r, i] · W[i, q]; a bias row is
  broadcast down the rows; a change of float format is the identity.  So row r of what the body stores is the
  tagger's score vector (Spec) of the r-th example of the block — of the three feature rows X₁[r, ·], X₂[r, ·],
  X₃[r, ·] alone.
-/
import proofs.«159635_j42296837931282_1_alg».proof.Proof.Gen.KernelIdeal.Skeleton
import proofs.«159635_j42296837931282_1_alg».proof.Proof.Spec
import proofs.«159635_j42296837931282_1_alg».proof.Proof.LibLayout
import proofs.«159635_j42296837931282_1_alg».proof.Proof.LibSoftmax
import Idealize.ShloMosaic.Lib.ValueLayout
import Idealize.ShloMosaic.Lib.Pipeline.Value
import Idealize.ShloMosaic.Lib.ValueIdx

noncomputable section

namespace Cert.KernelIdeal.Row

open Cert.KernelIdeal Cert.KernelIdeal.Gen Idealize.ShloMosaic Idealize.ShloMosaic.ValueIdx Idealize.ShloMosaic.TcCoe

/-- The network's weights as the body finds them in its resident blocks. -/
def params (Ww Wp Wd : Vec Ideal S700x700 .bf16) (bw bp bd : Vec Ideal S1x700 .f32) (Wo : Vec Ideal S700x93 .bf16)
    (bo : Vec Ideal S1x93 .f32) : Cert.Tagger.Params 700 700 93 where
  Ww i q := Ww (ix2 i q)
  bw q := bw (ix2 (0 : Fin 1) q)
  Wp i q := Wp (ix2 i q)
  bp q := bp (ix2 (0 : Fin 1) q)
  Wd i q := Wd (ix2 i q)
  bd q := bd (ix2 (0 : Fin 1) q)
  Wo q t := Wo (ix2 q t)
  bo t := bo (ix2 (0 : Fin 1) t)

/-- In the 1024×700 by 700×700 product the result's row is the left operand's row … -/
theorem hidden_lhs0 (j : S1024x700.Idx) (c : dot_S1024x700_S700x700_S1024x700_1_0_0_1_n_n.contr.Idx) :
    (dot_S1024x700_S700x700_S1024x700_1_0_0_1_n_n.lhsIdx j c 0).val = (j 0).val := by
  unfold DotDims.lhsIdx
  rw [dif_neg (show ¬(0 : Fin S1024x700.rank) ∈ dot_S1024x700_S700x700_S1024x700_1_0_0_1_n_n.lhsBatch by decide),
    dif_pos (show (0 : Fin S1024x700.rank) ∈ dot_S1024x700_S700x700_S1024x700_1_0_0_1_n_n.lhsNonContracting by decide)]
  rfl

/-- … and its column the right operand's column. -/
theorem hidden_rhs1 (j : S1024x700.Idx) (c : dot_S1024x700_S700x700_S1024x700_1_0_0_1_n_n.contr.Idx) :
    (dot_S1024x700_S700x700_S1024x700_1_0_0_1_n_n.rhsIdx j c 1).val = (j 1).val := by
  unfold DotDims.rhsIdx
  rw [dif_neg (show ¬(1 : Fin S700x700.rank) ∈ dot_S1024x700_S700x700_S1024x700_1_0_0_1_n_n.rhsBatch by decide),
    dif_pos (show (1 : Fin S700x700.rank) ∈ dot_S1024x700_S700x700_S1024x700_1_0_0_1_n_n.rhsNonContracting by decide)]
  rfl

/-- The same two facts of the 1024×700 by 700×93 product. -/
theorem out_lhs0 (j : S1024x93.Idx) (c : dot_S1024x700_S700x93_S1024x93_1_0_0_1_n_n.contr.Idx) :
    (dot_S1024x700_S700x93_S1024x93_1_0_0_1_n_n.lhsIdx j c 0).val = (j 0).val := by
  unfold DotDims.lhsIdx
  rw [dif_neg (show ¬(0 : Fin S1024x700.rank) ∈ dot_S1024x700_S700x93_S1024x93_1_0_0_1_n_n.lhsBatch by decide),
    dif_pos (show (0 : Fin S1024x700.rank) ∈ dot_S1024x700_S700x93_S1024x93_1_0_0_1_n_n.lhsNonContracting by decide)]
  rfl

theorem out_rhs1 (j : S1024x93.Idx) (c : dot_S1024x700_S700x93_S1024x93_1_0_0_1_n_n.contr.Idx) :
    (dot_S1024x700_S700x93_S1024x93_1_0_0_1_n_n.rhsIdx j c 1).val = (j 1).val := by
  unfold DotDims.rhsIdx
  rw [dif_neg (show ¬(1 : Fin S700x93.rank) ∈ dot_S1024x700_S700x93_S1024x93_1_0_0_1_n_n.rhsBatch by decide),
    dif_pos (show (1 : Fin S700x93.rank) ∈ dot_S1024x700_S700x93_S1024x93_1_0_0_1_n_n.rhsNonContracting by decide)]
  rfl

/-- One affine map of the hidden layer at (r, q): the product's row-by-column sum plus the bias row's entry q. -/
theorem affine_apply (X : FVec Ideal S1024x700 .bf16) (W : FVec Ideal S700x700 .bf16) (b : FVec Ideal S1x700 .f32)
    (r : Fin 1024) (q : Fin 700) :
    addf (matmul dot_S1024x700_S700x700_S1024x700_1_0_0_1_n_n none X W (constant S1024x700 .f32 0x00000000#32))
        (broadcastTo S1024x700 b broadcasts_S1x700_S1024x700) (ix2 r q)
      = ∑ i : Fin 700, X (ix2 r i) * W (ix2 i q) + b (ix2 (0 : Fin 1) q) := by
  rw [addf_apply, Cert.LibLayout.matmul_rows_cols_apply dot_S1024x700_S700x700_S1024x700_1_0_0_1_n_n rfl rfl rfl rfl
    hidden_lhs0 hidden_rhs1, broadcastTo_1b_ab_apply]

/-- The logits before their bias, at (r, t): the cubed hidden layer of example r against column t of the output map. -/
theorem pay2_apply (X₁ X₂ X₃ : Vec Ideal S1024x700 .bf16) (Ww Wp Wd : Vec Ideal S700x700 .bf16)
    (bw bp bd : Vec Ideal S1x700 .f32) (Wo : Vec Ideal S700x93 .bf16) (bo : Vec Ideal S1x93 .f32) (r : Fin 1024) (t : Fin 93) :
    k0_pay2 X₁ X₂ X₃ Ww Wp Wd bw bp bd Wo (ix2 r t)
      = ∑ q : Fin 700, Cert.Tagger.cube (Cert.Tagger.hidden (params Ww Wp Wd bw bp bd Wo bo)
          (fun i => X₁ (ix2 r i)) (fun i => X₂ (ix2 r i)) (fun i => X₃ (ix2 r i)) q) * Wo (ix2 q t) := by
  unfold k0_pay2
  simp only [shapeCast_self]
  rw [Cert.LibLayout.matmul_rows_cols_apply dot_S1024x700_S700x93_S1024x93_1_0_0_1_n_n rfl rfl rfl rfl out_lhs0 out_rhs1]
  refine Finset.sum_congr rfl fun q _ => ?_
  rw [truncf_apply, mulf_apply, mulf_apply, addf_apply, addf_apply, affine_apply, affine_apply, affine_apply]
  rfl

/-- The body's last stage is the row-wise softmax of the logits with their bias row added. -/
theorem pay1_eq (v34 : FVec Ideal S1024x93 .f32) (v35 : Vec Ideal S1x93 .f32) :
    k0_pay1 v34 v35 = Cert.LibSoftmax.softmaxMat
      (addf v34 (broadcastTo S1024x93 (shapeCast S1x93 v35 shapeCasts_S1x93_S1x93) broadcasts_S1x93_S1024x93))
      reduces_S1024x93_S1024 (.inl rfl) rfl rfl shapeCasts_S1024_S1024x1 broadcasts_S1024x1_S1024x93 := rfl

/-- WHAT THE BODY STORES, at (r, t): the tagger's score of class t for the block's r-th example. -/
theorem body_apply (X₁ X₂ X₃ : Vec Ideal S1024x700 .bf16) (Ww Wp Wd : Vec Ideal S700x700 .bf16)
    (bw bp bd : Vec Ideal S1x700 .f32) (Wo : Vec Ideal S700x93 .bf16) (bo : Vec Ideal S1x93 .f32) (r : Fin 1024) (t : Fin 93) :
    k0_pay1 (k0_pay2 X₁ X₂ X₃ Ww Wp Wd bw bp bd Wo) bo (ix2 r t)
      = Cert.Tagger.score (params Ww Wp Wd bw bp bd Wo bo)
          (fun i => X₁ (ix2 r i)) (fun i => X₂ (ix2 r i)) (fun i => X₃ (ix2 r i)) t := by
  rw [pay1_eq, Cert.LibSoftmax.softmaxMat_apply]
  unfold Cert.Tagger.score
  refine congrArg (fun L => Cert.LibSoftmax.row L t) (funext fun u => ?_)
  rw [addf_apply, pay2_apply X₁ X₂ X₃ Ww Wp Wd bw bp bd Wo bo, broadcastTo_1b_ab_apply, shapeCast_self]
  rfl

/-- The same at any index y of the block: row y₀, class y₁. -/
theorem body_at (X₁ X₂ X₃ : Vec Ideal S1024x700 .bf16) (Ww Wp Wd : Vec Ideal S700x700 .bf16)
    (bw bp bd : Vec Ideal S1x700 .f32) (Wo : Vec Ideal S700x93 .bf16) (bo : Vec Ideal S1x93 .f32) (y : S1024x93.Idx) :
    k0_pay1 (k0_pay2 X₁ X₂ X₃ Ww Wp Wd bw bp bd Wo) bo y
      = Cert.Tagger.score (params Ww Wp Wd bw bp bd Wo bo)
          (fun i => X₁ (ix2 (y 0) i)) (fun i => X₂ (ix2 (y 0) i)) (fun i => X₃ (ix2 (y 0) i)) (y 1) := by
  obtain ⟨r, t, rfl⟩ : ∃ (r : Fin 1024) (t : Fin 93), y = ix2 r t := ⟨y 0, y 1, eq_ix2 y⟩
  exact body_apply X₁ X₂ X₃ Ww Wp Wd bw bp bd Wo bo r t

/-- The weights depend on the eight resident blocks alone. -/
theorem params_congr {Ww Ww' Wp Wp' Wd Wd' : Vec Ideal S700x700 .bf16} {bw bw' bp bp' bd bd' : Vec Ideal S1x700 .f32}
    {Wo Wo' : Vec Ideal S700x93 .bf16} {bo bo' : Vec Ideal S1x93 .f32}
    (h₁ : Ww = Ww') (h₂ : Wp = Wp') (h₃ : Wd = Wd') (h₄ : bw = bw') (h₅ : bp = bp') (h₆ : bd = bd') (h₇ : Wo = Wo') (h₈ : bo = bo') :
    params Ww Wp Wd bw bp bd Wo bo = params Ww' Wp' Wd' bw' bp' bd' Wo' bo' := by
  subst h₁ h₂ h₃ h₄ h₅ h₆ h₇ h₈
  rfl

end Cert.KernelIdeal.Row

end
-- ==== Proof.Blocks.lean ====
/-
  From the blocks to the whole result array.

  The grid has 64 points; point t works on rows 1024·t … 1024·t + 1023 of the three feature matrices and writes rows
  1024·t … 1024·t + 1023 of the 65536 × 93 result; the eight weight and bias windows are the same whole arrays at every
  point.  Row r of what point t writes is the tagger's score vector of the r-th example of its block (KernelRow), which
  is example 1024·t + r of the whole matrices: so every point writes its block of ONE array, `scoresAt`, whose row b is
  the score vector of example b.  The 64 blocks cover the result array, so the array ends as `scoresAt`.
-/
import proofs.«159635_j42296837931282_1_alg».proof.Proof.Gen.KernelIdeal.Frame
import proofs.«159635_j42296837931282_1_alg».proof.Proof.Gen.KernelIdeal.Value
import proofs.«159635_j42296837931282_1_alg».proof.Proof.KernelRow
import Idealize.ShloMosaic.Lib.Pipeline.Value
import Idealize.ShloMosaic.Lib.ValueIdx

noncomputable section

namespace Cert.KernelIdeal.Blocks

open Cert.KernelIdeal Cert.KernelIdeal.Gen Cert.KernelIdeal.Value Idealize.ShloMosaic Idealize.ShloMosaic.ValueIdx
  Idealize.ShloMosaic.TcCoe Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The whole array of scores: row b is the tagger's score vector of the feature rows b of A₁, A₂, A₃. -/
def scores (A₁ A₂ A₃ : S65536x700.Idx → EReal) (Ww Wp Wd : Vec Ideal S700x700 .bf16) (bw bp bd : Vec Ideal S1x700 .f32)
    (Wo : Vec Ideal S700x93 .bf16) (bo : Vec Ideal S1x93 .f32) : S65536x93.Idx → EReal := fun j =>
  Cert.Tagger.score (Row.params Ww Wp Wd bw bp bd Wo bo)
    (fun i => A₁ (ix2 (⟨(j 0).val, (j 0).isLt⟩ : Fin 65536) i)) (fun i => A₂ (ix2 (⟨(j 0).val, (j 0).isLt⟩ : Fin 65536) i))
    (fun i => A₃ (ix2 (⟨(j 0).val, (j 0).isLt⟩ : Fin 65536) i)) (⟨(j 1).val, (j 1).isLt⟩ : Fin 93)

/-- The scores of the arrays the region finds in its eleven input windows. -/
def scoresAt (c : Dev nD) : S65536x93.Idx → EReal :=
  scores (V m c main_v27) (V m c main_v29) (V m c main_v31) (V m c main_v32) (V m c main_v33) (V m c main_v34)
    (V m c main_v36) (V m c main_v37) (V m c main_v38) (V m c main_v35) (V m c main_v39)

/-- The index maps over the 64 points: the three feature windows move down the rows with the output window, in column
    block 0; the output's column block is 0. -/
theorem idx_moving : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_11.index t (1 : Fin 2) = 0 :=
  (by decide +kernel : ∀ t : Fin grid0.N, _)

/-- The eight weight and bias windows stay at block (0, 0). -/
theorem idx_resident : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Every one of the 64 row blocks of the result is some point's. -/
theorem idx_onto : ∀ q : Fin 64, ∃ t : Fin cfg0.N, win0_11.index t = ![q.val, 0] :=
  (by decide +kernel : ∀ q : Fin 64, ∃ t : Fin grid0.N, win0_11.index t = ![q.val, 0])

set_option maxHeartbeats 4000000 in
/-- WHAT POINT t WRITES BACK is block t of `scoresAt`. -/
theorem flushed_eq (c : Dev nD) (t : Fin cfg0.N) :
    (dats m 0 c).flushed 11 t = ((cfg0.win 11).blk t).view.read (Elt Ideal) (scoresAt m c) := by
  show (cfg0.win 11).cut (grid0.coords t) ((dats m 0 c).after 11 t) = _
  rw [after0_11]
  unfold out0_11
  rw [View.canon_unit_zero zero_offsets]
  simp only [View.ld_unit_zero (S := S1024x700) zero_offsets, View.ld_unit_zero (S := S700x700) zero_offsets,
    View.ld_unit_zero (S := S1x700) zero_offsets, View.ld_unit_zero (S := S700x93) zero_offsets,
    View.ld_unit_zero (S := S1x93) zero_offsets]
  obtain ⟨e0, e0', e1, e1', e2, e2', e11⟩ := idx_moving t
  obtain ⟨⟨r3, r3'⟩, ⟨r4, r4'⟩, ⟨r5, r5'⟩, ⟨r6, r6'⟩, ⟨r7, r7'⟩, ⟨r8, r8'⟩, ⟨r9, r9'⟩, ⟨r10, r10'⟩⟩ := idx_resident t
  funext y
  show k0_pay1 (k0_pay2 (iblk m c 0 t) (iblk m c 1 t) (iblk m c 2 t) (iblk m c 3 t) (iblk m c 5 t) (iblk m c 7 t)
      (iblk m c 4 t) (iblk m c 6 t) (iblk m c 8 t) (iblk m c 9 t)) (iblk m c 10 t) y
    = scoresAt m c (((cfg0.win 11).blk t).view.emb y)
  refine (Row.body_at (iblk m c 0 t) (iblk m c 1 t) (iblk m c 2 t) (iblk m c 3 t) (iblk m c 5 t) (iblk m c 7 t)
      (iblk m c 4 t) (iblk m c 6 t) (iblk m c 8 t) (iblk m c 9 t) (iblk m c 10 t) y).trans ?_
  have hy0 : (y 0).val < 1024 := (y 0).isLt
  have hy1 : (y 1).val < 93 := (y 1).isLt
  have h3 : (iblk m c 3 t : Vec Ideal S700x700 .bf16) = V m c main_v32 := funext fun x =>
    congrArg (V m c main_v32) (funext fun a => Fin.ext (by
      match a with
      | ⟨0, _⟩ => show win0_3.index t (0 : Fin 2) * 700 + 1 * (x 0).val = (x 0).val; omega
      | ⟨1, _⟩ => show win0_3.index t (1 : Fin 2) * 700 + 1 * (x 1).val = (x 1).val; omega))
  have h5 : (iblk m c 5 t : Vec Ideal S700x700 .bf16) = V m c main_v33 := funext fun x =>
    congrArg (V m c main_v33) (funext fun a => Fin.ext (by
      match a with
      | ⟨0, _⟩ => show win0_5.index t (0 : Fin 2) * 700 + 1 * (x 0).val = (x 0).val; omega
      | ⟨1, _⟩ => show win0_5.index t (1 : Fin 2) * 700 + 1 * (x 1).val = (x 1).val; omega))
  have h7 : (iblk m c 7 t : Vec Ideal S700x700 .bf16) = V m c main_v34 := funext fun x =>
    congrArg (V m c main_v34) (funext fun a => Fin.ext (by
      match a with
      | ⟨0, _⟩ => show win0_7.index t (0 : Fin 2) * 700 + 1 * (x 0).val = (x 0).val; omega
      | ⟨1, _⟩ => show win0_7.index t (1 : Fin 2) * 700 + 1 * (x 1).val = (x 1).val; omega))
  have h4 : (iblk m c 4 t : Vec Ideal S1x700 .f32) = V m c main_v36 := funext fun x =>
    congrArg (V m c main_v36) (funext fun a => Fin.ext (by
      match a with
      | ⟨0, _⟩ => show win0_4.index t (0 : Fin 2) * 1 + 1 * (x 0).val = (x 0).val; omega
      | ⟨1, _⟩ => show win0_4.index t (1 : Fin 2) * 700 + 1 * (x 1).val = (x 1).val; omega))
  have h6 : (iblk m c 6 t : Vec Ideal S1x700 .f32) = V m c main_v37 := funext fun x =>
    congrArg (V m c main_v37) (funext fun a => Fin.ext (by
      match a with
      | ⟨0, _⟩ => show win0_6.index t (0 : Fin 2) * 1 + 1 * (x 0).val = (x 0).val; omega
      | ⟨1, _⟩ => show win0_6.index t (1 : Fin 2) * 700 + 1 * (x 1).val = (x 1).val; omega))
  have h8 : (iblk m c 8 t : Vec Ideal S1x700 .f32) = V m c main_v38 := funext fun x =>
    congrArg (V m c main_v38) (funext fun a => Fin.ext (by
      match a with
      | ⟨0, _⟩ => show win0_8.index t (0 : Fin 2) * 1 + 1 * (x 0).val = (x 0).val; omega
      | ⟨1, _⟩ => show win0_8.index t (1 : Fin 2) * 700 + 1 * (x 1).val = (x 1).val; omega))
  have h9 : (iblk m c 9 t : Vec Ideal S700x93 .bf16) = V m c main_v35 := funext fun x =>
    congrArg (V m c main_v35) (funext fun a => Fin.ext (by
      match a with
      | ⟨0, _⟩ => show win0_9.index t (0 : Fin 2) * 700 + 1 * (x 0).val = (x 0).val; omega
      | ⟨1, _⟩ => show win0_9.index t (1 : Fin 2) * 93 + 1 * (x 1).val = (x 1).val; omega))
  have h10 : (iblk m c 10 t : Vec Ideal S1x93 .f32) = V m c main_v39 := funext fun x =>
    congrArg (V m c main_v39) (funext fun a => Fin.ext (by
      match a with
      | ⟨0, _⟩ => show win0_10.index t (0 : Fin 2) * 1 + 1 * (x 0).val = (x 0).val; omega
      | ⟨1, _⟩ => show win0_10.index t (1 : Fin 2) * 93 + 1 * (x 1).val = (x 1).val; omega))
  have f0 : (fun i : Fin 700 => (iblk m c 0 t : Vec Ideal S1024x700 .bf16) (ix2 (y 0) i))
      = fun i : Fin 700 => V m c main_v27 (ix2 (⟨((((cfg0.win 11).blk t).view.emb y) 0).val, ((((cfg0.win 11).blk t).view.emb y) 0).isLt⟩ : Fin 65536) i) :=
    funext fun i => congrArg (V m c main_v27) (funext fun a => Fin.ext (by
      match a with
      | ⟨0, _⟩ => show win0_0.index t (0 : Fin 2) * 1024 + 1 * (y 0).val = win0_11.index t (0 : Fin 2) * 1024 + 1 * (y 0).val; omega
      | ⟨1, _⟩ => show win0_0.index t (1 : Fin 2) * 700 + 1 * i.val = i.val; omega))
  have f1 : (fun i : Fin 700 => (iblk m c 1 t : Vec Ideal S1024x700 .bf16) (ix2 (y 0) i))
      = fun i : Fin 700 => V m c main_v29 (ix2 (⟨((((cfg0.win 11).blk t).view.emb y) 0).val, ((((cfg0.win 11).blk t).view.emb y) 0).isLt⟩ : Fin 65536) i) :=
    funext fun i => congrArg (V m c main_v29) (funext fun a => Fin.ext (by
      match a with
      | ⟨0, _⟩ => show win0_1.index t (0 : Fin 2) * 1024 + 1 * (y 0).val = win0_11.index t (0 : Fin 2) * 1024 + 1 * (y 0).val; omega
      | ⟨1, _⟩ => show win0_1.index t (1 : Fin 2) * 700 + 1 * i.val = i.val; omega))
  have f2 : (fun i : Fin 700 => (iblk m c 2 t : Vec Ideal S1024x700 .bf16) (ix2 (y 0) i))
      = fun i : Fin 700 => V m c main_v31 (ix2 (⟨((((cfg0.win 11).blk t).view.emb y) 0).val, ((((cfg0.win 11).blk t).view.emb y) 0).isLt⟩ : Fin 65536) i) :=
    funext fun i => congrArg (V m c main_v31) (funext fun a => Fin.ext (by
      match a with
      | ⟨0, _⟩ => show win0_2.index t (0 : Fin 2) * 1024 + 1 * (y 0).val = win0_11.index t (0 : Fin 2) * 1024 + 1 * (y 0).val; omega
      | ⟨1, _⟩ => show win0_2.index t (1 : Fin 2) * 700 + 1 * i.val = i.val; omega))
  have hu : (y 1 : Fin 93) = (⟨((((cfg0.win 11).blk t).view.emb y) 1).val, ((((cfg0.win 11).blk t).view.emb y) 1).isLt⟩ : Fin 93) :=
    Fin.ext (show (y 1).val = win0_11.index t (1 : Fin 2) * 93 + 1 * (y 1).val by omega)
  exact Cert.Tagger.score_congr (Row.params_congr h3 h5 h7 h4 h6 h8 h9 h10) f0 f1 f2 hu

/-- An index of the result is in point t's block iff each coordinate is in the block's range on its axis. -/
theorem mem_blk (t : Fin cfg0.N) (i : S65536x93.Idx) :
    i ∈ ((cfg0.win 11).blk t).view.set ↔ ∀ a : Fin 2, win0_11.index t a * S1024x93.size a ≤ (i a).val
      ∧ (i a).val < win0_11.index t a * S1024x93.size a + S1024x93.size a := by
  show i ∈ ((View.whole main_v40).slice (win0_11.rect t)).set ↔ _
  rw [View.set_slice_whole, Rect.mem_set_unit]
  exact Iff.rfl

/-- The 64 blocks cover the result: row b is in the block of point b / 1024. -/
theorem covered (i : S65536x93.Idx) :
    ∃ t : Fin cfg0.N, (cfg0.win 11).flush t = true ∧ i ∈ ((cfg0.win 11).blk t).view.set := by
  have hi0 : (i 0).val < 65536 := (i 0).isLt
  have hi1 : (i 1).val < 93 := (i 1).isLt
  obtain ⟨t, ht⟩ := idx_onto ⟨(i 0).val / 1024, by omega⟩
  have q0 : win0_11.index t (0 : Fin 2) = (i 0).val / 1024 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 93 ≤ (i 1).val ∧ (i 1).val < win0_11.index t (1 : Fin 2) * 93 + 93; omega

/-- THE RESULT ARRAY after the run is `scoresAt`. -/
theorem final (c : Dev nD) : (dats m 0 c).arrAt 11 cfg0.N = scoresAt m c :=
  (dats m 0 c).arrAt_eq_of_cover 11 (scoresAt m c) (fun t _ => flushed_eq m c t) (covered)

end Cert.KernelIdeal.Blocks

end
-- ==== Proof.HostSide.lean ====
/-
  What the region finds in its eleven input windows.

  Before the region the program gathers rows of the three embedding tables (a word index below zero gives a zero row),
  flattens each example's seven embeddings into one row of 700, and narrows everything to the narrower float format;
  it narrows the four weight matrices and gives each bias vector a leading unit axis.  On the extended reals a change
  of float format is the identity, so:
  * the three feature matrices are the very matrices the reference builds from the same arguments — the same
    operations in the same order, compared as terms: the gathers are never opened;
  * each weight window holds its argument matrix;
  * each bias window holds, at (0, q), its argument vector's entry q.
-/
import proofs.«159635_j42296837931282_1_alg».proof.Proof.Gen.KernelIdeal.Frame
import proofs.«159635_j42296837931282_1_alg».proof.Proof.Gen.ReferenceIdeal.Read
import Idealize.ShloMosaic.Lib.StableHlo.Run
import Idealize.ShloMosaic.Lib.ValueLayout
import Idealize.ShloMosaic.Lib.ValueIdx

noncomputable section

namespace Cert.KernelIdeal.HostSide

open Cert.KernelIdeal Cert.KernelIdeal.Gen Idealize.ShloMosaic Idealize.ShloMosaic.ValueIdx Idealize.ShloMosaic.TcCoe
  Idealize.SL.Sem Idealize.ShloMosaic.StableHlo

variable (m : (ℓ : Loc nD τ sig) → Buf (Elt Ideal) ℓ)

/-! ## The three feature matrices -/

set_option maxHeartbeats 8000000 in
/-- The word features: the reference's masked, gathered and flattened word embeddings of the same arguments. -/
theorem words_eq (c : Dev nD) : (V m c main_v27 : S65536x700.Idx → EReal)
    = Cert.ReferenceIdeal.Read.val_main_v12 (F := Ideal) (m ((c : Thread nD τ).loc main_arg0)) (m ((c : Thread nD τ).loc main_arg3)) := by
  dsimp only [V]
  simp only [hostOps0, hostOps0_1, hostOps0_2, hostOps0_3, hostOps0_4, List.flatten_cons, List.flatten_nil, List.append_nil,
    List.cons_append, List.nil_append]
  after_results_simp
  rfl

set_option maxHeartbeats 8000000 in
/-- The part-of-speech features. -/
theorem tags_eq (c : Dev nD) : (V m c main_v29 : S65536x700.Idx → EReal)
    = Cert.ReferenceIdeal.Read.val_main_v20 (F := Ideal) (m ((c : Thread nD τ).loc main_arg1)) (m ((c : Thread nD τ).loc main_arg4)) := by
  dsimp only [V]
  simp only [hostOps0, hostOps0_1, hostOps0_2, hostOps0_3, hostOps0_4, List.flatten_cons, List.flatten_nil, List.append_nil,
    List.cons_append, List.nil_append]
  after_results_simp
  rfl

set_option maxHeartbeats 8000000 in
/-- The dependency features. -/
theorem deps_eq (c : Dev nD) : (V m c main_v31 : S65536x700.Idx → EReal)
    = Cert.ReferenceIdeal.Read.val_main_v28 (F := Ideal) (m ((c : Thread nD τ).loc main_arg2)) (m ((c : Thread nD τ).loc main_arg5)) := by
  dsimp only [V]
  simp only [hostOps0, hostOps0_1, hostOps0_2, hostOps0_3, hostOps0_4, List.flatten_cons, List.flatten_nil, List.append_nil,
    List.cons_append, List.nil_append]
  after_results_simp
  rfl

/-! ## The four weight matrices -/

set_option maxHeartbeats 8000000 in
theorem Ww_eq (c : Dev nD) : (V m c main_v32 : S700x700.Idx → EReal) = m ((c : Thread nD τ).loc main_arg6) := by
  dsimp only [V]
  simp only [hostOps0, hostOps0_1, hostOps0_2, hostOps0_3, hostOps0_4, List.flatten_cons, List.flatten_nil, List.append_nil,
    List.cons_append, List.nil_append]
  after_results_simp
  rfl

set_option maxHeartbeats 8000000 in
theorem Wp_eq (c : Dev nD) : (V m c main_v33 : S700x700.Idx → EReal) = m ((c : Thread nD τ).loc main_arg8) := by
  dsimp only [V]
  simp only [hostOps0, hostOps0_1, hostOps0_2, hostOps0_3, hostOps0_4, List.flatten_cons, List.flatten_nil, List.append_nil,
    List.cons_append, List.nil_append]
  after_results_simp
  rfl

set_option maxHeartbeats 8000000 in
theorem Wd_eq (c : Dev nD) : (V m c main_v34 : S700x700.Idx → EReal) = m ((c : Thread nD τ).loc main_arg10) := by
  dsimp only [V]
  simp only [hostOps0, hostOps0_1, hostOps0_2, hostOps0_3, hostOps0_4, List.flatten_cons, List.flatten_nil, List.append_nil,
    List.cons_append, List.nil_append]
  after_results_simp
  rfl

set_option maxHeartbeats 8000000 in
theorem Wo_eq (c : Dev nD) : (V m c main_v35 : S700x93.Idx → EReal) = m ((c : Thread nD τ).loc main_arg12) := by
  dsimp only [V]
  simp only [hostOps0, hostOps0_1, hostOps0_2, hostOps0_3, hostOps0_4, List.flatten_cons, List.flatten_nil, List.append_nil,
    List.cons_append, List.nil_append]
  after_results_simp
  rfl

/-! ## The four bias rows -/

set_option maxHeartbeats 8000000 in
theorem bw_eq (c : Dev nD) : (V m c main_v36 : S1x700.Idx → EReal)
    = shapeCast S1x700 (m ((c : Thread nD τ).loc main_arg7)) Facts₀.shapeCasts_S700_S1x700 := by
  dsimp only [V]
  simp only [hostOps0, hostOps0_1, hostOps0_2, hostOps0_3, hostOps0_4, List.flatten_cons, List.flatten_nil, List.append_nil,
    List.cons_append, List.nil_append]
  after_results_simp
  rfl

set_option maxHeartbeats 8000000 in
theorem bp_eq (c : Dev nD) : (V m c main_v37 : S1x700.Idx → EReal)
    = shapeCast S1x700 (m ((c : Thread nD τ).loc main_arg9)) Facts₀.shapeCasts_S700_S1x700 := by
  dsimp only [V]
  simp only [hostOps0, hostOps0_1, hostOps0_2, hostOps0_3, hostOps0_4, List.flatten_cons, List.flatten_nil, List.append_nil,
    List.cons_append, List.nil_append]
  after_results_simp
  rfl

set_option maxHeartbeats 8000000 in
theorem bd_eq (c : Dev nD) : (V m c main_v38 : S1x700.Idx → EReal)
    = shapeCast S1x700 (m ((c : Thread nD τ).loc main_arg11)) Facts₀.shapeCasts_S700_S1x700 := by
  dsimp only [V]
  simp only [hostOps0, hostOps0_1, hostOps0_2, hostOps0_3, hostOps0_4, List.flatten_cons, List.flatten_nil, List.append_nil,
    List.cons_append, List.nil_append]
  after_results_simp
  rfl

set_option maxHeartbeats 8000000 in
theorem bo_eq (c : Dev nD) : (V m c main_v39 : S1x93.Idx → EReal)
    = shapeCast S1x93 (m ((c : Thread nD τ).loc main_arg13)) Facts₀.shapeCasts_S93_S1x93 := by
  dsimp only [V]
  simp only [hostOps0, hostOps0_1, hostOps0_2, hostOps0_3, hostOps0_4, List.flatten_cons, List.flatten_nil, List.append_nil,
    List.cons_append, List.nil_append]
  after_results_simp
  rfl

/-- A bias row at (0, q) is the bias vector at q. -/
theorem bw_apply (c : Dev nD) (q : Fin 700) :
    (V m c main_v36 : S1x700.Idx → EReal) (ix2 (0 : Fin 1) q) = (m ((c : Thread nD τ).loc main_arg7) : S700.Idx → EReal) (ix1 q) := by
  rw [bw_eq]; exact shapeCast_a_1a_apply _ _ 0 q

theorem bp_apply (c : Dev nD) (q : Fin 700) :
    (V m c main_v37 : S1x700.Idx → EReal) (ix2 (0 : Fin 1) q) = (m ((c : Thread nD τ).loc main_arg9) : S700.Idx → EReal) (ix1 q) := by
  rw [bp_eq]; exact shapeCast_a_1a_apply _ _ 0 q

theorem bd_apply (c : Dev nD) (q : Fin 700) :
    (V m c main_v38 : S1x700.Idx → EReal) (ix2 (0 : Fin 1) q) = (m ((c : Thread nD τ).loc main_arg11) : S700.Idx → EReal) (ix1 q) := by
  rw [bd_eq]; exact shapeCast_a_1a_apply _ _ 0 q

theorem bo_apply (c : Dev nD) (t : Fin 93) :
    (V m c main_v39 : S1x93.Idx → EReal) (ix2 (0 : Fin 1) t) = (m ((c : Thread nD τ).loc main_arg13) : S93.Idx → EReal) (ix1 t) := by
  rw [bo_eq]; exact shapeCast_a_1a_apply _ _ 0 t

end Cert.KernelIdeal.HostSide

end
-- ==== Proof.RefRow.lean ====
/-
  One example through the reference, on the extended reals.

  The reference gathers the three embedding matrices (65536 × 700 after the reshape), applies the three affine maps
  with `dot_general` and biases broadcast down the rows, cubes, applies the output map, and takes the softmax of every
  row: the row maximum by a reduce from −∞ (taken once more against −∞), the exponentials of the differences, their row
  sum by a reduce from zero, the quotient.  Read at (b, t), with each operation's index function resolved to
  coordinates, this is the tagger's score (Spec) of class t for the feature rows b of the three gathered matrices.
  The gathers themselves are never opened: the gathered matrices enter as they are.
-/
import proofs.«159635_j42296837931282_1_alg».proof.Proof.Gen.ReferenceIdeal.Read
import proofs.«159635_j42296837931282_1_alg».proof.Proof.Spec
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx
  Idealize.ShloMosaic.TcCoe

/-- The network's weights as the reference's arguments give them. -/
def params (x6 : (⟨S700x700, .f32⟩ : BufTy).Contents (Elt Ideal)) (x7 : (⟨S700, .f32⟩ : BufTy).Contents (Elt Ideal)) (x8 : (⟨S700x700, .f32⟩ : BufTy).Contents (Elt Ideal)) (x9 : (⟨S700, .f32⟩ : BufTy).Contents (Elt Ideal))
    (x10 : (⟨S700x700, .f32⟩ : BufTy).Contents (Elt Ideal)) (x11 : (⟨S700, .f32⟩ : BufTy).Contents (Elt Ideal)) (x12 : (⟨S700x93, .f32⟩ : BufTy).Contents (Elt Ideal)) (x13 : (⟨S93, .f32⟩ : BufTy).Contents (Elt Ideal)) :
    Cert.Tagger.Params 700 700 93 where
  Ww i q := x6 (ix2 i q)
  bw q := x7 (ix1 q)
  Wp i q := x8 (ix2 i q)
  bp q := x9 (ix1 q)
  Wd i q := x10 (ix2 i q)
  bd q := x11 (ix1 q)
  Wo q t := x12 (ix2 q t)
  bo t := x13 (ix1 t)

/-! ## The host's row maximum -/

/-- A reduce with a maximum body over the second axis of a matrix, at row r: the fold of max over that row from the
    initial value. -/
theorem hostMaxRows_apply {a n : ℕ} (x : FVec Ideal ⟨2, ![a, n]⟩ .f32) (init : (⟨0, ![]⟩ : Shape).Idx → Ideal .f32)
    (h' : (⟨2, ![a, n]⟩ : Shape).ReducesTo [1] ⟨1, ![a]⟩) (h : (⟨2, ![a, n]⟩ : Shape).Reduces [1] ⟨1, ![a]⟩)
    (hu : 0 < (⟨0, ![]⟩ : Shape).numel) (r : Fin a) :
    Host.reduce FloatOps.maximumf x init h' hu (ix1 r)
      = (Finset.univ : Finset (Fin n)).fold max (init (Shape.Idx.first hu)) (fun t => x (ix2 r t)) := by
  rw [Host.reduce_eq_fold_single FloatOps.maximumf x _ h' h hu]
  have hf : (x ∘ h.lift (ix1 r)) = fun t : Fin n => x (ix2 r t) :=
    funext fun t => congrArg x (funext fun c => Fin.ext (by fin_cases c <;> rfl))
  exact congrArg (fun f => Finset.fold max (init (Shape.Idx.first hu)) f (Finset.univ : Finset (Fin n))) hf

/-! ## The hidden layer -/

/-- The hidden layer before its activation, at (b, q). -/
theorem hidden_apply (x0 x1 x2 : (⟨S65536x7, .i32⟩ : BufTy).Contents (Elt Ideal)) (x3 : (⟨S32000x100, .f32⟩ : BufTy).Contents (Elt Ideal)) (x4 : (⟨S50x100, .f32⟩ : BufTy).Contents (Elt Ideal)) (x5 : (⟨S45x100, .f32⟩ : BufTy).Contents (Elt Ideal))
    (x6 : (⟨S700x700, .f32⟩ : BufTy).Contents (Elt Ideal)) (x7 : (⟨S700, .f32⟩ : BufTy).Contents (Elt Ideal)) (x8 : (⟨S700x700, .f32⟩ : BufTy).Contents (Elt Ideal)) (x9 : (⟨S700, .f32⟩ : BufTy).Contents (Elt Ideal))
    (x10 : (⟨S700x700, .f32⟩ : BufTy).Contents (Elt Ideal)) (x11 : (⟨S700, .f32⟩ : BufTy).Contents (Elt Ideal)) (x12 : (⟨S700x93, .f32⟩ : BufTy).Contents (Elt Ideal)) (x13 : (⟨S93, .f32⟩ : BufTy).Contents (Elt Ideal)) (b : Fin 65536) (q : Fin 700) :
    val_main_v42 (F := Ideal) x0 x1 x2 x3 x4 x5 x6 x7 x8 x9 x10 x11 (ix2 b q)
      = Cert.Tagger.hidden (params x6 x7 x8 x9 x10 x11 x12 x13) (fun i => val_main_v12 (F := Ideal) x0 x3 (ix2 b i)) (fun i => val_main_v20 (F := Ideal) x1 x4 (ix2 b i))
          (fun i => val_main_v28 (F := Ideal) x2 x5 (ix2 b i)) q := by
  have el29 : ∀ k : Fin 700, lidx_main_v29 (ix2 b q) k = ix2 b k := fun k =>
    funext fun a => Fin.ext (by match a with | ⟨0, _⟩ => rfl | ⟨1, _⟩ => rfl)
  have er29 : ∀ k : Fin 700, ridx_main_v29 (ix2 b q) k = ix2 k q := fun k =>
    funext fun a => Fin.ext (by match a with | ⟨0, _⟩ => rfl | ⟨1, _⟩ => rfl)
  have el33 : ∀ k : Fin 700, lidx_main_v33 (ix2 b q) k = ix2 b k := fun k =>
    funext fun a => Fin.ext (by match a with | ⟨0, _⟩ => rfl | ⟨1, _⟩ => rfl)
  have er33 : ∀ k : Fin 700, ridx_main_v33 (ix2 b q) k = ix2 k q := fun k =>
    funext fun a => Fin.ext (by match a with | ⟨0, _⟩ => rfl | ⟨1, _⟩ => rfl)
  have el38 : ∀ k : Fin 700, lidx_main_v38 (ix2 b q) k = ix2 b k := fun k =>
    funext fun a => Fin.ext (by match a with | ⟨0, _⟩ => rfl | ⟨1, _⟩ => rfl)
  have er38 : ∀ k : Fin 700, ridx_main_v38 (ix2 b q) k = ix2 k q := fun k =>
    funext fun a => Fin.ext (by match a with | ⟨0, _⟩ => rfl | ⟨1, _⟩ => rfl)
  have e30 : idx_main_v30 (idx_main_v31 (ix2 b q)) = ix1 q :=
    funext fun a => Fin.ext (by match a with | ⟨0, _⟩ => rfl)
  have e34 : idx_main_v34 (idx_main_v35 (ix2 b q)) = ix1 q :=
    funext fun a => Fin.ext (by match a with | ⟨0, _⟩ => rfl)
  have e39 : idx_main_v39 (idx_main_v40 (ix2 b q)) = ix1 q :=
    funext fun a => Fin.ext (by match a with | ⟨0, _⟩ => rfl)
  rw [val_main_v42_apply, val_main_v37_apply, val_main_v32_apply, val_main_v36_apply, val_main_v41_apply,
    val_main_v29_apply, val_main_v33_apply, val_main_v38_apply, val_main_v31_apply, val_main_v30_apply,
    val_main_v35_apply, val_main_v34_apply, val_main_v40_apply, val_main_v39_apply, e30, e34, e39]
  simp only [el29, er29, el33, er33, el38, er38]
  rfl

/-! ## The logits -/

/-- The logit of class u for example b. -/
theorem logit_apply (x0 x1 x2 : (⟨S65536x7, .i32⟩ : BufTy).Contents (Elt Ideal)) (x3 : (⟨S32000x100, .f32⟩ : BufTy).Contents (Elt Ideal)) (x4 : (⟨S50x100, .f32⟩ : BufTy).Contents (Elt Ideal)) (x5 : (⟨S45x100, .f32⟩ : BufTy).Contents (Elt Ideal))
    (x6 : (⟨S700x700, .f32⟩ : BufTy).Contents (Elt Ideal)) (x7 : (⟨S700, .f32⟩ : BufTy).Contents (Elt Ideal)) (x8 : (⟨S700x700, .f32⟩ : BufTy).Contents (Elt Ideal)) (x9 : (⟨S700, .f32⟩ : BufTy).Contents (Elt Ideal))
    (x10 : (⟨S700x700, .f32⟩ : BufTy).Contents (Elt Ideal)) (x11 : (⟨S700, .f32⟩ : BufTy).Contents (Elt Ideal)) (x12 : (⟨S700x93, .f32⟩ : BufTy).Contents (Elt Ideal)) (x13 : (⟨S93, .f32⟩ : BufTy).Contents (Elt Ideal)) (b : Fin 65536) (u : Fin 93) :
    val_main_v48 (F := Ideal) x0 x1 x2 x3 x4 x5 x6 x7 x8 x9 x10 x11 x12 x13 (ix2 b u)
      = Cert.Tagger.logit (params x6 x7 x8 x9 x10 x11 x12 x13) (fun i => val_main_v12 (F := Ideal) x0 x3 (ix2 b i)) (fun i => val_main_v20 (F := Ideal) x1 x4 (ix2 b i))
          (fun i => val_main_v28 (F := Ideal) x2 x5 (ix2 b i)) u := by
  have el : ∀ k : Fin 700, lidx_main_v45 (ix2 b u) k = ix2 b k := fun k =>
    funext fun a => Fin.ext (by match a with | ⟨0, _⟩ => rfl | ⟨1, _⟩ => rfl)
  have er : ∀ k : Fin 700, ridx_main_v45 (ix2 b u) k = ix2 k u := fun k =>
    funext fun a => Fin.ext (by match a with | ⟨0, _⟩ => rfl | ⟨1, _⟩ => rfl)
  have e46 : idx_main_v46 (idx_main_v47 (ix2 b u)) = ix1 u :=
    funext fun a => Fin.ext (by match a with | ⟨0, _⟩ => rfl)
  rw [val_main_v48_apply, val_main_v45_apply, val_main_v47_apply, val_main_v46_apply, e46]
  simp only [el, er, val_main_v44_apply, val_main_v43_apply, hidden_apply x0 x1 x2 x3 x4 x5 x6 x7 x8 x9 x10 x11 x12 x13 b]
  rfl

/-! ## The softmax -/

/-- THE REFERENCE'S RESULT at (b, t): the tagger's score of class t for example b. -/
theorem result_apply (x0 x1 x2 : (⟨S65536x7, .i32⟩ : BufTy).Contents (Elt Ideal)) (x3 : (⟨S32000x100, .f32⟩ : BufTy).Contents (Elt Ideal)) (x4 : (⟨S50x100, .f32⟩ : BufTy).Contents (Elt Ideal)) (x5 : (⟨S45x100, .f32⟩ : BufTy).Contents (Elt Ideal))
    (x6 : (⟨S700x700, .f32⟩ : BufTy).Contents (Elt Ideal)) (x7 : (⟨S700, .f32⟩ : BufTy).Contents (Elt Ideal)) (x8 : (⟨S700x700, .f32⟩ : BufTy).Contents (Elt Ideal)) (x9 : (⟨S700, .f32⟩ : BufTy).Contents (Elt Ideal))
    (x10 : (⟨S700x700, .f32⟩ : BufTy).Contents (Elt Ideal)) (x11 : (⟨S700, .f32⟩ : BufTy).Contents (Elt Ideal)) (x12 : (⟨S700x93, .f32⟩ : BufTy).Contents (Elt Ideal)) (x13 : (⟨S93, .f32⟩ : BufTy).Contents (Elt Ideal)) (b : Fin 65536) (t : Fin 93) :
    val_main_v59 (F := Ideal) x0 x1 x2 x3 x4 x5 x6 x7 x8 x9 x10 x11 x12 x13 (ix2 b t)
      = Cert.Tagger.score (params x6 x7 x8 x9 x10 x11 x12 x13) (fun i => val_main_v12 (F := Ideal) x0 x3 (ix2 b i)) (fun i => val_main_v20 (F := Ideal) x1 x4 (ix2 b i))
          (fun i => val_main_v28 (F := Ideal) x2 x5 (ix2 b i)) t := by
  have hL := fun u : Fin 93 => logit_apply x0 x1 x2 x3 x4 x5 x6 x7 x8 x9 x10 x11 x12 x13 b u
  have hM : val_main_v51 (F := Ideal) x0 x1 x2 x3 x4 x5 x6 x7 x8 x9 x10 x11 x12 x13 (ix1 b)
      = max (Ideal.ofBits .f32 0xFF800000#32) (Finset.univ.fold max (Ideal.ofBits .f32 0xFF800000#32)
          (Cert.Tagger.logit (params x6 x7 x8 x9 x10 x11 x12 x13) (fun i => val_main_v12 (F := Ideal) x0 x3 (ix2 b i)) (fun i => val_main_v20 (F := Ideal) x1 x4 (ix2 b i))
          (fun i => val_main_v28 (F := Ideal) x2 x5 (ix2 b i)))) := by
    rw [val_main_v51_apply, val_main_v50_apply, val_main_cst_8_apply]
    unfold val_main_v49
    rw [hostMaxRows_apply _ _ _ (by decide) _ b]
    simp only [hL]
    rfl
  have e52 : ∀ u : Fin 93, idx_main_v52 (idx_main_v53 (ix2 b u)) = ix1 b := fun u =>
    funext fun a => Fin.ext (by match a with | ⟨0, _⟩ => rfl)
  have hE : ∀ u : Fin 93, val_main_v55 (F := Ideal) x0 x1 x2 x3 x4 x5 x6 x7 x8 x9 x10 x11 x12 x13 (ix2 b u)
      = Ideal.exp (Cert.Tagger.logit (params x6 x7 x8 x9 x10 x11 x12 x13) (fun i => val_main_v12 (F := Ideal) x0 x3 (ix2 b i)) (fun i => val_main_v20 (F := Ideal) x1 x4 (ix2 b i))
          (fun i => val_main_v28 (F := Ideal) x2 x5 (ix2 b i)) u
          - max (Ideal.ofBits .f32 0xFF800000#32) (Finset.univ.fold max (Ideal.ofBits .f32 0xFF800000#32)
              (Cert.Tagger.logit (params x6 x7 x8 x9 x10 x11 x12 x13) (fun i => val_main_v12 (F := Ideal) x0 x3 (ix2 b i)) (fun i => val_main_v20 (F := Ideal) x1 x4 (ix2 b i))
          (fun i => val_main_v28 (F := Ideal) x2 x5 (ix2 b i))))) := by
    intro u
    rw [val_main_v55_apply, val_main_v54_apply, val_main_v53_apply, val_main_v52_apply, e52, hM, hL]
    rfl
  have e57 : idx_main_v57 (idx_main_v58 (ix2 b t)) = ix1 b :=
    funext fun a => Fin.ext (by match a with | ⟨0, _⟩ => rfl)
  have e56 : ∀ k : Fin 93, idx_main_v56 (ix1 b) k = ix2 b k := fun k =>
    funext fun a => Fin.ext (by match a with | ⟨0, _⟩ => rfl | ⟨1, _⟩ => rfl)
  rw [val_main_v59_apply, val_main_v58_apply, val_main_v57_apply, e57, val_main_v56_apply, val_main_cst_9_apply]
  simp only [e56, hE]
  unfold Cert.Tagger.score Cert.LibSoftmax.row
  rw [Ideal.hostDivf_def, Ideal.ofBits_def, Ideal.ofBits_zero_f32, zero_add]

/-! ## The whole result -/

/-- The whole array of scores as a function of the fourteen arguments: row b is the tagger's score vector of the
    feature rows b of the three gathered matrices. -/
def scores (x0 x1 x2 : (⟨S65536x7, .i32⟩ : BufTy).Contents (Elt Ideal)) (x3 : (⟨S32000x100, .f32⟩ : BufTy).Contents (Elt Ideal)) (x4 : (⟨S50x100, .f32⟩ : BufTy).Contents (Elt Ideal)) (x5 : (⟨S45x100, .f32⟩ : BufTy).Contents (Elt Ideal))
    (x6 : (⟨S700x700, .f32⟩ : BufTy).Contents (Elt Ideal)) (x7 : (⟨S700, .f32⟩ : BufTy).Contents (Elt Ideal)) (x8 : (⟨S700x700, .f32⟩ : BufTy).Contents (Elt Ideal)) (x9 : (⟨S700, .f32⟩ : BufTy).Contents (Elt Ideal))
    (x10 : (⟨S700x700, .f32⟩ : BufTy).Contents (Elt Ideal)) (x11 : (⟨S700, .f32⟩ : BufTy).Contents (Elt Ideal)) (x12 : (⟨S700x93, .f32⟩ : BufTy).Contents (Elt Ideal)) (x13 : (⟨S93, .f32⟩ : BufTy).Contents (Elt Ideal)) : S65536x93.Idx → EReal := fun j =>
  Cert.Tagger.score (params x6 x7 x8 x9 x10 x11 x12 x13)
    (fun i => val_main_v12 (F := Ideal) x0 x3 (ix2 (⟨(j 0).val, (j 0).isLt⟩ : Fin 65536) i))
    (fun i => val_main_v20 (F := Ideal) x1 x4 (ix2 (⟨(j 0).val, (j 0).isLt⟩ : Fin 65536) i))
    (fun i => val_main_v28 (F := Ideal) x2 x5 (ix2 (⟨(j 0).val, (j 0).isLt⟩ : Fin 65536) i)) (⟨(j 1).val, (j 1).isLt⟩ : Fin 93)

/-- THE REFERENCE'S RESULT is that array. -/
theorem result_eq (x0 x1 x2 : (⟨S65536x7, .i32⟩ : BufTy).Contents (Elt Ideal)) (x3 : (⟨S32000x100, .f32⟩ : BufTy).Contents (Elt Ideal)) (x4 : (⟨S50x100, .f32⟩ : BufTy).Contents (Elt Ideal)) (x5 : (⟨S45x100, .f32⟩ : BufTy).Contents (Elt Ideal))
    (x6 : (⟨S700x700, .f32⟩ : BufTy).Contents (Elt Ideal)) (x7 : (⟨S700, .f32⟩ : BufTy).Contents (Elt Ideal)) (x8 : (⟨S700x700, .f32⟩ : BufTy).Contents (Elt Ideal)) (x9 : (⟨S700, .f32⟩ : BufTy).Contents (Elt Ideal))
    (x10 : (⟨S700x700, .f32⟩ : BufTy).Contents (Elt Ideal)) (x11 : (⟨S700, .f32⟩ : BufTy).Contents (Elt Ideal)) (x12 : (⟨S700x93, .f32⟩ : BufTy).Contents (Elt Ideal)) (x13 : (⟨S93, .f32⟩ : BufTy).Contents (Elt Ideal)) :
    val_main_v59 (F := Ideal) x0 x1 x2 x3 x4 x5 x6 x7 x8 x9 x10 x11 x12 x13 = scores x0 x1 x2 x3 x4 x5 x6 x7 x8 x9 x10 x11 x12 x13 := by
  funext j
  obtain ⟨b, t, rfl⟩ : ∃ (b : Fin 65536) (t : Fin 93), j = ix2 b t := ⟨j 0, j 1, eq_ix2 j⟩
  exact result_apply x0 x1 x2 x3 x4 x5 x6 x7 x8 x9 x10 x11 x12 x13 b t

end Cert.ReferenceIdeal.Row

end
-- ==== Proof.Bridge.lean ====
/-
  The kernel's run, read against the reference's function.

  After the run the result array is `scoresAt` (Blocks): the scores of the arrays the region found in its windows.
  Those arrays are the reference's own three feature matrices of the same arguments, the argument weight matrices, and
  the argument bias vectors laid as rows (HostSide).  So the result array is the reference's whole-array function
  (RefRow) of the kernel's fourteen arguments.
-/
import proofs.«159635_j42296837931282_1_alg».proof.Proof.Blocks
import proofs.«159635_j42296837931282_1_alg».proof.Proof.HostSide
import proofs.«159635_j42296837931282_1_alg».proof.Proof.RefRow

noncomputable section

namespace Cert.KernelIdeal.Bridge

open Cert.KernelIdeal Cert.KernelIdeal.Gen Idealize.ShloMosaic Idealize.ShloMosaic.ValueIdx Idealize.ShloMosaic.TcCoe
  Idealize.SL.Sem

variable (m : (ℓ : Loc nD τ sig) → Buf (Elt Ideal) ℓ) (ρ : Dev nD → PrngReg)

/-- The weights the body finds in its resident blocks are the argument weights. -/
theorem params_eq (c : Dev nD) :
    Row.params (V m c main_v32) (V m c main_v33) (V m c main_v34) (V m c main_v36) (V m c main_v37) (V m c main_v38)
        (V m c main_v35) (V m c main_v39)
      = Cert.ReferenceIdeal.Row.params (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold Row.params Cert.ReferenceIdeal.Row.params
  congr 1
  case e_bw => funext q; exact HostSide.bw_apply m c q
  case e_bp => funext q; exact HostSide.bp_apply m c q
  case e_bd => funext q; exact HostSide.bd_apply m c q
  case e_bo => funext t; exact HostSide.bo_apply m c t

/-- The scores of what the region found are the reference's function of the arguments. -/
theorem scoresAt_eq (c : Dev nD) :
    Blocks.scoresAt m c = Cert.ReferenceIdeal.Row.scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext j
  unfold Blocks.scoresAt Blocks.scores Cert.ReferenceIdeal.Row.scores
  refine Cert.Tagger.score_congr (params_eq m c) ?_ ?_ ?_ rfl
  · funext i; exact congrFun (HostSide.words_eq m c) _
  · funext i; exact congrFun (HostSide.tags_eq m c) _
  · funext i; exact congrFun (HostSide.deps_eq m c) _

/-- THE KERNEL'S RUN: every weakly fair execution terminates with the result array at the reference's function of the
    arguments, the arguments unchanged. -/
theorem run : θ_run defs (onTc (τ := τ) (main (F := Ideal))) ⟨m, fun _ => 0, ρ⟩ fun r => ∀ c : Dev nD,
      r.2.mem ((c : Thread nD τ).loc main_v40) = Cert.ReferenceIdeal.Row.scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans ((Blocks.final m c).trans (scoresAt_eq m c)), (h c).2⟩)
    (Cert.KernelIdeal.Value.run_blocks m ρ)

end Cert.KernelIdeal.Bridge

end
-- ==== Proof.lean ====
/-
  A feed-forward tagger over 65536 examples: three embedding lookups laid end to end as rows of 700, three affine maps
  700 → 700 summed, the cube, an affine map 700 → 93 and the softmax of every row.

  The kernel does the lookups on the host, narrows the features and weights to a narrower float format, and runs the
  affine maps, the cube and the softmax on blocks of 1024 examples, the weights resident; the reference does everything
  on whole arrays.  On the extended reals a change of float format is the identity, a matrix product accumulated into
  zero is the host's `dot_general` entry by entry, and the two softmaxes are spelled with the same maximum, difference,
  exponential, sum and quotient.  So both results are, row by row, ONE function of the fourteen arguments: the score
  vector (Spec) of the example's three feature rows.  The feature matrices themselves — the gathers — are the same term
  on both sides and are never opened; no law of the extended reals beyond the definitions is used, so the precondition
  is not needed for the value.

  KernelRow reads one example through the kernel's body, RefRow one example through the reference; Blocks assembles
  the kernel's 64 blocks into the whole array, HostSide identifies what the region finds in its windows, Bridge states
  the kernel's run against the reference's function.
-/
import proofs.«159635_j42296837931282_1_alg».proof.Defs
import proofs.«159635_j42296837931282_1_alg».proof.Proof.Gen.Kernel
import proofs.«159635_j42296837931282_1_alg».proof.Proof.Gen.Kernel.Skeleton
import proofs.«159635_j42296837931282_1_alg».proof.Proof.Gen.Kernel.Launch
import proofs.«159635_j42296837931282_1_alg».proof.Proof.Gen.Kernel.Points
import proofs.«159635_j42296837931282_1_alg».proof.Proof.Gen.Kernel.Frame
import proofs.«159635_j42296837931282_1_alg».proof.Proof.Gen.KernelIdeal
import proofs.«159635_j42296837931282_1_alg».proof.Proof.Gen.KernelIdeal.Skeleton
import proofs.«159635_j42296837931282_1_alg».proof.Proof.Gen.KernelIdeal.Launch
import proofs.«159635_j42296837931282_1_alg».proof.Proof.Gen.KernelIdeal.Points
import proofs.«159635_j42296837931282_1_alg».proof.Proof.Gen.KernelIdeal.Frame
import proofs.«159635_j42296837931282_1_alg».proof.Proof.Gen.ReferenceIdeal
import proofs.«159635_j42296837931282_1_alg».proof.Proof.Gen.Pre_finite_inputs
import proofs.«159635_j42296837931282_1_alg».proof.Proof.Gen.KernelIdeal.Value
import proofs.«159635_j42296837931282_1_alg».proof.Proof.Gen.ReferenceIdeal.Run
import proofs.«159635_j42296837931282_1_alg».proof.Proof.Gen.ReferenceIdeal.Read
import proofs.«159635_j42296837931282_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the reference's whole-array function of the (agreeing) arguments. -/
theorem algebraic : Cert.algebraic_KernelIdeal_ReferenceIdeal := by
  intro m ρ m' ρ' _ hagree
  refine ⟨fun c => Cert.ReferenceIdeal.Row.scores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.Row.result_eq]
  obtain ⟨a0, a1, a2, a3, a4, a5, a6, a7, a8, a9, a10, a11, a12, a13⟩ := hagree c
  rw [a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
